-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v75)) (v2 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_v78) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x17x256x256 : Shape := ⟨4, ![16, 17, 256, 256]⟩
abbrev S16x30x17x2 : Shape := ⟨4, ![16, 30, 17, 2]⟩
abbrev S_ : Shape := ⟨0, ![]⟩

class Facts : Prop where
  bcast_S_S16x17x256x256 : S_.BroadcastsInDim S16x17x256x256 (![] : Fin 0 → Fin S16x17x256x256.rank)
  reducesTo_S16x17x256x256_S_d0_1_2_3 : S16x17x256x256.ReducesTo [0, 1, 2, 3] S_
  h_S_ : 0 < S_.numel

variable [Facts]

def fn_part1 {F : FTy → Type} [FloatOps F] (main_v13 : IVec S_ 1) (main_v16 : IVec S16x17x256x256 1) : IVec S_ 1 :=
  let main_c_5 : IVec S_ 1 := constantI S_ 1 1#1
  let main_v17 : IVec S_ 1 := (fun x v => Host.reduce IntOp.andi x v reducesTo_S16x17x256x256_S_d0_1_2_3 h_S_) main_v16 main_c_5
  let main_v18 : IVec S_ 1 := andi main_v13 main_v17
  main_v18

def fn {F : FTy → Type} [FloatOps F] (main_arg0 : FVec F S16x17x256x256 .f32) (main_arg1 : FVec F S16x17x256x256 .f32) (main_arg2 : FVec F S16x17x256x256 .f32) (main_arg3 : FVec F S16x17x256x256 .f32) (main_arg4 : IVec S16x30x17x2 32) : IVec S_ 1 :=
  let main_v0 : FVec F S16x17x256x256 .f32 := Host.absf main_arg0
  let main_cst : FVec F S_ .f32 := constant S_ .f32 0x7F800000#32
  let main_v1 : FVec F S16x17x256x256 .f32 := broadcastInDim S16x17x256x256 ![] bcast_S_S16x17x256x256 main_cst
  let main_v2 : IVec S16x17x256x256 1 := cmpf .olt main_v0 main_v1
  let main_c : IVec S_ 1 := constantI S_ 1 1#1
  let main_v3 : IVec S_ 1 := (fun x v => Host.reduce IntOp.andi x v reducesTo_S16x17x256x256_S_d0_1_2_3 h_S_) main_v2 main_c
  let main_v4 : FVec F S16x17x256x256 .f32 := Host.absf main_arg1
  let main_cst_0 : FVec F S_ .f32 := constant S_ .f32 0x7F800000#32
  let main_v5 : FVec F S16x17x256x256 .f32 := broadcastInDim S16x17x256x256 ![] bcast_S_S16x17x256x256 main_cst_0
  let main_v6 : IVec S16x17x256x256 1 := cmpf .olt main_v4 main_v5
  let main_c_1 : IVec S_ 1 := constantI S_ 1 1#1
  let main_v7 : IVec S_ 1 := (fun x v => Host.reduce IntOp.andi x v reducesTo_S16x17x256x256_S_d0_1_2_3 h_S_) main_v6 main_c_1
  let main_v8 : IVec S_ 1 := andi main_v3 main_v7
  let main_v9 : FVec F S16x17x256x256 .f32 := Host.absf main_arg2
  let main_cst_2 : FVec F S_ .f32 := constant S_ .f32 0x7F800000#32
  let main_v10 : FVec F S16x17x256x256 .f32 := broadcastInDim S16x17x256x256 ![] bcast_S_S16x17x256x256 main_cst_2
  let main_v11 : IVec S16x17x256x256 1 := cmpf .olt main_v9 main_v10
  let main_c_3 : IVec S_ 1 := constantI S_ 1 1#1
  let main_v12 : IVec S_ 1 := (fun x v => Host.reduce IntOp.andi x v reducesTo_S16x17x256x256_S_d0_1_2_3 h_S_) main_v11 main_c_3
  let main_v13 : IVec S_ 1 := andi main_v8 main_v12
  let main_v14 : FVec F S16x17x256x256 .f32 := Host.absf main_arg3
  let main_cst_4 : FVec F S_ .f32 := constant S_ .f32 0x7F800000#32
  let main_v15 : FVec F S16x17x256x256 .f32 := broadcastInDim S16x17x256x256 ![] bcast_S_S16x17x256x256 main_cst_4
  let main_v16 : IVec S16x17x256x256 1 := cmpf .olt main_v14 main_v15
  fn_part1 (F := F) main_v13 main_v16
-- ==== Kernel.lean ====
abbrev S16x17x256x256 : Shape := ⟨4, ![16, 17, 256, 256]⟩
abbrev S16x30x17x2 : Shape := ⟨4, ![16, 30, 17, 2]⟩
abbrev S272x256x256 : Shape := ⟨3, ![272, 256, 256]⟩
abbrev S16x8x128 : Shape := ⟨3, ![16, 8, 128]⟩
abbrev S17x256x256 : Shape := ⟨3, ![17, 256, 256]⟩
abbrev S1x8x128 : Shape := ⟨3, ![1, 8, 128]⟩
abbrev S17x256 : Shape := ⟨2, ![17, 256]⟩
abbrev S17x256x1 : Shape := ⟨3, ![17, 256, 1]⟩
abbrev S17x1 : Shape := ⟨2, ![17, 1]⟩
abbrev S17x1x1 : Shape := ⟨3, ![17, 1, 1]⟩
abbrev S1x1 : Shape := ⟨2, ![1, 1]⟩
abbrev S1x1x1 : Shape := ⟨3, ![1, 1, 1]⟩
abbrev S16x1x1 : Shape := ⟨3, ![16, 1, 1]⟩
abbrev S16 : Shape := ⟨1, ![16]⟩
abbrev S_ : Shape := ⟨0, ![]⟩
abbrev S16x1114112 : Shape := ⟨2, ![16, 1114112]⟩
abbrev S16x30x17x1 : Shape := ⟨4, ![16, 30, 17, 1]⟩
abbrev S16x30x17 : Shape := ⟨3, ![16, 30, 17]⟩
abbrev S16x30 : Shape := ⟨2, ![16, 30]⟩
abbrev S16x30x1 : Shape := ⟨3, ![16, 30, 1]⟩
abbrev S30 : Shape := ⟨1, ![30]⟩
abbrev S16x1x30 : Shape := ⟨3, ![16, 1, 30]⟩
abbrev S16x30x30 : Shape := ⟨3, ![16, 30, 30]⟩
abbrev S30x30 : Shape := ⟨2, ![30, 30]⟩

abbrev nBuf : Space → Nat
  | .hbm => 120
  | .vmem => 8
  | .smem => 0
  | _ => 0

abbrev bufTy : (tb : Table) → Fin (tcTables nBuf tb) → BufTy
  | .hbm, ⟨0, _⟩ => ⟨S16x17x256x256, .f32⟩
  | .hbm, ⟨1, _⟩ => ⟨S16x17x256x256, .f32⟩
  | .hbm, ⟨2, _⟩ => ⟨S16x17x256x256, .f32⟩
  | .hbm, ⟨3, _⟩ => ⟨S16x17x256x256, .f32⟩
  | .hbm, ⟨4, _⟩ => ⟨S16x30x17x2, .i32⟩
  | .hbm, ⟨5, _⟩ => ⟨S272x256x256, .f32⟩
  | .hbm, ⟨6, _⟩ => ⟨S272x256x256, .f32⟩
  | .hbm, ⟨7, _⟩ => ⟨S272x256x256, .f32⟩
  | .hbm, ⟨8, _⟩ => ⟨S16x8x128, .f32⟩
  | .hbm, ⟨9, _⟩ => ⟨S16x1x1, .f32⟩
  | .hbm, ⟨10, _⟩ => ⟨S16, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16x1114112, .f32⟩
  | .hbm, ⟨18, _⟩ => ⟨S16x30x17x1, .i32⟩
  | .hbm, ⟨19, _⟩ => ⟨S16x30x17, .i32⟩
  | .hbm, ⟨20, _⟩ => ⟨S16x30x17x1, .i32⟩
  | .hbm, ⟨21, _⟩ => ⟨S16x30x17, .i32⟩
  | .hbm, ⟨22, _⟩ => ⟨S_, .i32⟩
  | .hbm, ⟨23, _⟩ => ⟨S16x30x17, .i32⟩
  | .hbm, ⟨24, _⟩ => ⟨S16x30x17, .i1⟩
  | .hbm, ⟨25, _⟩ => ⟨S16x30x17, .f32⟩
  | .hbm, ⟨26, _⟩ => ⟨S_, .i32⟩
  | .hbm, ⟨27, _⟩ => ⟨S16x30x17, .i32⟩
  | .hbm, ⟨28, _⟩ => ⟨S16x30x17, .i1⟩
  | .hbm, ⟨29, _⟩ => ⟨S_, .i32⟩
  | .hbm, ⟨30, _⟩ => ⟨S16x30x17, .i32⟩
  | .hbm, ⟨31, _⟩ => ⟨S16x30x17, .i32⟩
  | .hbm, ⟨32, _⟩ => ⟨S16x30x17, .i32⟩
  | .hbm, ⟨33, _⟩ => ⟨S16x30x17x1, .i32⟩
  | .hbm, ⟨34, _⟩ => ⟨S16x30x17, .f32⟩
  | .hbm, ⟨35, _⟩ => ⟨S_, .f32⟩
  | .hbm, ⟨36, _⟩ => ⟨S16x30, .f32⟩
  | .hbm, ⟨37, _⟩ => ⟨S_, .f32⟩
  | .hbm, ⟨38, _⟩ => ⟨S16x30, .f32⟩
  | .hbm, ⟨39, _⟩ => ⟨S16x30, .i1⟩
  | .hbm, ⟨40, _⟩ => ⟨S_, .f32⟩
  | .hbm, ⟨41, _⟩ => ⟨S16x30, .f32⟩
  | .hbm, ⟨42, _⟩ => ⟨S16x30, .f32⟩
  | .hbm, ⟨43, _⟩ => ⟨S16x30x17, .f32⟩
  | .hbm, ⟨44, _⟩ => ⟨S_, .f32⟩
  | .hbm, ⟨45, _⟩ => ⟨S16x30, .f32⟩
  | .hbm, ⟨46, _⟩ => ⟨S16x30, .f32⟩
  | .hbm, ⟨47, _⟩ => ⟨S16x30x1, .f32⟩
  | .hbm, ⟨48, _⟩ => ⟨S16x30x17, .f32⟩
  | .hbm, ⟨49, _⟩ => ⟨S16x30x17, .f32⟩
  | .hbm, ⟨50, _⟩ => ⟨S16x30x17, .f32⟩
  | .hbm, ⟨51, _⟩ => ⟨S16x30x17, .f32⟩
  | .hbm, ⟨52, _⟩ => ⟨S_, .f32⟩
  | .hbm, ⟨53, _⟩ => ⟨S16x30, .f32⟩
  | .hbm, ⟨54, _⟩ => ⟨S16x30, .f32⟩
  | .hbm, ⟨55, _⟩ => ⟨S16x30, .f32⟩
  | .hbm, ⟨56, _⟩ => ⟨S_, .f32⟩
  | .hbm, ⟨57, _⟩ => ⟨S16, .f32⟩
  | .hbm, ⟨58, _⟩ => ⟨S_, .f32⟩
  | .hbm, ⟨59, _⟩ => ⟨S_, .f32⟩
  | .hbm, ⟨60, _⟩ => ⟨S30, .f32⟩
  | .hbm, ⟨61, _⟩ => ⟨S16x30, .f32⟩
  | .hbm, ⟨62, _⟩ => ⟨S16x30, .f32⟩
  | .hbm, ⟨63, _⟩ => ⟨S_, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S16, .f32⟩
  | .hbm, ⟨69, _⟩ => ⟨S16x30x1, .f32⟩
  | .hbm, ⟨70, _⟩ => ⟨S16x1x30, .f32⟩
  | .hbm, ⟨71, _⟩ => ⟨S16x30x30, .f32⟩
  | .hbm, ⟨72, _⟩ => ⟨S16x30x30, .f32⟩
  | .hbm, ⟨73, _⟩ => ⟨S16x30x30, .f32⟩
  | .hbm, ⟨74, _⟩ => ⟨S16x30x1, .i1⟩
  | .hbm, ⟨75, _⟩ => ⟨S16x1x30, .i1⟩
  | .hbm, ⟨76, _⟩ => ⟨S16x30x30, .i1⟩
  | .hbm, ⟨77, _⟩ => ⟨S16x30x30, .i1⟩
  | .hbm, ⟨78, _⟩ => ⟨S16x30x30, .i1⟩
  | .hbm, ⟨79, _⟩ => ⟨S16x30x30, .f32⟩
  | .hbm, ⟨80, _⟩ => ⟨S16x30x30, .f32⟩
  | .hbm, ⟨81, _⟩ => ⟨S16x30x30, .f32⟩
  | .hbm, ⟨82, _⟩ => ⟨S_, .f32⟩
  | .hbm, ⟨83, _⟩ => ⟨S_, .f32⟩
  | .hbm, ⟨84, _⟩ => ⟨S30x30, .f32⟩
  | .hbm, ⟨85, _⟩ => ⟨S16x30x30, .f32⟩
  | .hbm, ⟨86, _⟩ => ⟨S16x30x30, .f32⟩
  | .hbm, ⟨87, _⟩ => ⟨S_, .f32⟩
  | .hbm, ⟨88, _⟩ => ⟨S16, .f32⟩
  | .hbm, ⟨89, _⟩ => ⟨S_, .f32⟩
  | .hbm, ⟨90, _⟩ => ⟨S16, .f32⟩
  | .hbm, ⟨91, _⟩ => ⟨S16, .f32⟩
  | .hbm, ⟨92, _⟩ => ⟨S16, .f32⟩
  | .hbm, ⟨93, _⟩ => ⟨S_, .f32⟩
  | .hbm, ⟨94, _⟩ => ⟨S16, .f32⟩
  | .hbm, ⟨95, _⟩ => ⟨S16, .f32⟩
  | .hbm, ⟨96, _⟩ => ⟨S_, .f32⟩
  | .hbm, ⟨97, _⟩ => ⟨S16, .f32⟩
  | .hbm, ⟨98, _⟩ => ⟨S16, .i1⟩
  | .hbm, ⟨99, _⟩ => ⟨S16, .f32⟩
  | .hbm, ⟨100, _⟩ => ⟨S16, .f32⟩
  | .hbm, ⟨101, _⟩ => ⟨S_, .f32⟩
  | .hbm, ⟨102, _⟩ => ⟨S16, .f32⟩
  | .hbm, ⟨103, _⟩ => ⟨S16, .f32⟩
  | .hbm, ⟨104, _⟩ => ⟨S_, .f32⟩
  | .hbm, ⟨105, _⟩ => ⟨S_, .f32⟩
  | .hbm, ⟨106, _⟩ => ⟨S16, .f32⟩
  | .hbm, ⟨107, _⟩ => ⟨S16, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .local _ .vmem, ⟨0, _⟩ => ⟨S17x256x256, .f32⟩
  | .local _ .vmem, ⟨1, _⟩ => ⟨S17x256x256, .f32⟩
  | .local _ .vmem, ⟨2, _⟩ => ⟨S17x256x256, .f32⟩
  | .local _ .vmem, ⟨3, _⟩ => ⟨S17x256x256, .f32⟩
  | .local _ .vmem, ⟨4, _⟩ => ⟨S17x256x256, .f32⟩
  | .local _ .vmem, ⟨5, _⟩ => ⟨S17x256x256, .f32⟩
  | .local _ .vmem, ⟨6, _⟩ => ⟨S1x8x128, .f32⟩
  | .local _ .vmem, ⟨7, _⟩ => ⟨S1x8x128, .f32⟩
  | _, _ => ⟨S16x17x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_cst_10 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_cst_12 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v59 : Ref sig .tc := ⟨.hbm, 86, rfl⟩
abbrev main_cst_14 : Ref sig .tc := ⟨.hbm, 87, rfl⟩
abbrev main_v60 : Ref sig .tc := ⟨.hbm, 88, rfl⟩
abbrev main_cst_15 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_16 : Ref sig .tc := ⟨.hbm, 93, rfl⟩
abbrev main_v64 : Ref sig .tc := ⟨.hbm, 94, rfl⟩
abbrev main_v65 : Ref sig .tc := ⟨.hbm, 95, rfl⟩
abbrev main_cst_17 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_18 : Ref sig .tc := ⟨.hbm, 101, rfl⟩
abbrev main_v70 : Ref sig .tc := ⟨.hbm, 102, rfl⟩
abbrev main_v71 : Ref sig .tc := ⟨.hbm, 103, rfl⟩
abbrev main_cst_19 : Ref sig .tc := ⟨.hbm, 104, rfl⟩
abbrev main_call2_v0 : Ref sig .tc := ⟨.hbm, 105, rfl⟩
abbrev main_call2_v1 : Ref sig .tc := ⟨.hbm, 106, rfl⟩
abbrev main_v72 : Ref sig .tc := ⟨.hbm, 107, rfl⟩
abbrev main_cst_20 : Ref sig .tc := ⟨.hbm, 108, rfl⟩
abbrev main_v73 : Ref sig .tc := ⟨.hbm, 109, rfl⟩
abbrev main_cst_21 : Ref sig .tc := ⟨.hbm, 110, rfl⟩
abbrev main_v74 : Ref sig .tc := ⟨.hbm, 111, rfl⟩
abbrev main_cst_22 : Ref sig .tc := ⟨.hbm, 112, rfl⟩
abbrev main_v75 : Ref sig .tc := ⟨.hbm, 113, rfl⟩
abbrev main_cst_23 : Ref sig .tc := ⟨.hbm, 114, rfl⟩
abbrev main_v76 : Ref sig .tc := ⟨.hbm, 115, rfl⟩
abbrev main_cst_24 : Ref sig .tc := ⟨.hbm, 116, rfl⟩
abbrev main_v77 : Ref sig .tc := ⟨.hbm, 117, rfl⟩
abbrev main_cst_25 : Ref sig .tc := ⟨.hbm, 118, rfl⟩
abbrev main_v78 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S17x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S17x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S17x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x17x256x256_S272x256x256 : S16x17x256x256.ShapeCasts S272x256x256
  inb_S17x256x256_S17x256x256_0_0_0 : ∀ a, (![0, 0, 0] : Fin 3 → Nat) a + S17x256x256.size a ≤ S17x256x256.size a
  h_S17x256x256 : 0 < S17x256x256.numel
  shapeCasts_S17x256x256_S17x256x256 : S17x256x256.ShapeCasts S17x256x256
  reduces_S17x256x256_S17x256 : S17x256x256.Reduces [2] S17x256
  shapeCasts_S17x256_S17x256x1 : S17x256.ShapeCasts S17x256x1
  reduces_S17x256x1_S17x1 : S17x256x1.Reduces [1] S17x1
  shapeCasts_S17x1_S17x1x1 : S17x1.ShapeCasts S17x1x1
  reduces_S17x1x1_S1x1 : S17x1x1.Reduces [0] S1x1
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S16x8x128_S16x1x1_0_0_0 : S16x8x128.Slices ![0, 0, 0] S16x1x1
  shapeCasts_S16x1x1_S16 : S16x1x1.ShapeCasts S16
  reducesTo_S16_S_d0 : S16.ReducesTo [0] S_
  h_S_ : 0 < S_.numel
  shapeCasts_S16x17x256x256_S16x1114112 : S16x17x256x256.ShapeCasts S16x1114112
  slices_S16x30x17x2_S16x30x17x1_0_0_0_0 : S16x30x17x2.Slices ![0, 0, 0, 0] S16x30x17x1
  shapeCasts_S16x30x17x1_S16x30x17 : S16x30x17x1.ShapeCasts S16x30x17
  slices_S16x30x17x2_S16x30x17x1_0_0_0_1 : S16x30x17x2.Slices ![0, 0, 0, 1] S16x30x17x1
  bcast_S_S16x30x17 : S_.BroadcastsInDim S16x30x17 (![] : Fin 0 → Fin S16x30x17.rank)
  bcast_S16x30x17_S16x30x17x1_0_1_2 : S16x30x17.BroadcastsInDim S16x30x17x1 (![0, 1, 2] : Fin 3 → Fin S16x30x17x1.rank)
  reducesTo_S16x30x17_S16x30_d2 : S16x30x17.ReducesTo [2] S16x30
  bcast_S_S16x30 : S_.BroadcastsInDim S16x30 (![] : Fin 0 → Fin S16x30.rank)
  bcast_S16x30_S16x30x1_0_1 : S16x30.BroadcastsInDim S16x30x1 (![0, 1] : Fin 2 → Fin S16x30x1.rank)
  bcast_S16x30x1_S16x30x17_0_1_2 : S16x30x1.BroadcastsInDim S16x30x17 (![0, 1, 2] : Fin 3 → Fin S16x30x17.rank)
  reducesTo_S16x30_S16_d1 : S16x30.ReducesTo [1] S16
  bcast_S_S30 : S_.BroadcastsInDim S30 (![] : Fin 0 → Fin S30.rank)
  bcast_S30_S16x30_1 : S30.BroadcastsInDim S16x30 (![1] : Fin 1 → Fin S16x30.rank)
  bcast_S_S16 : S_.BroadcastsInDim S16 (![] : Fin 0 → Fin S16.rank)
  bcast_S16x30_S16x1x30_0_2 : S16x30.BroadcastsInDim S16x1x30 (![0, 2] : Fin 2 → Fin S16x1x30.rank)
  bcast_S16x30x1_S16x30x30_0_1_2 : S16x30x1.BroadcastsInDim S16x30x30 (![0, 1, 2] : Fin 3 → Fin S16x30x30.rank)
  bcast_S16x1x30_S16x30x30_0_1_2 : S16x1x30.BroadcastsInDim S16x30x30 (![0, 1, 2] : Fin 3 → Fin S16x30x30.rank)
  bcast_S_S30x30 : S_.BroadcastsInDim S30x30 (![] : Fin 0 → Fin S30x30.rank)
  bcast_S30x30_S16x30x30_1_2 : S30x30.BroadcastsInDim S16x30x30 (![1, 2] : Fin 2 → Fin S16x30x30.rank)
  reducesTo_S16x30x30_S16_d1_2 : S16x30x30.ReducesTo [1, 2] S16
  gather_S16x1114112_S16x30x17x1_S16x30x17_n_1_0_0_1_3_11_wf : GatherDims.WF S16x1114112 S16x30x17x1 S16x30x17 [] [1] [0] [1] [0] 3 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S17x256x256.size a ≤ S272x256x256.size a
  hwx0_0 : ∀ i : grid0.Coords, EltTy.bits .f32 = 32 ∨ (Rect.block (s := S272x256x256) S17x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S17x256x256.size a ≤ S272x256x256.size a
  hwx0_1 : ∀ i : grid0.Coords, EltTy.bits .f32 = 32 ∨ (Rect.block (s := S272x256x256) S17x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S17x256x256.size a ≤ S272x256x256.size a
  hwx0_2 : ∀ i : grid0.Coords, EltTy.bits .f32 = 32 ∨ (Rect.block (s := S272x256x256) S17x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S16x8x128.size a
  hwx0_3 : ∀ i : grid0.Coords, EltTy.bits .f32 = 32 ∨ (Rect.block (s := S16x8x128) S1x8x128.size (cc0_transform_3 i) (hinb0_3 i)).WholeWords (EltTy.packing .f32)

variable [Facts₀]

def gather_S16x1114112_S16x30x17x1_S16x30x17_n_1_0_0_1_3_11 : GatherDims S16x1114112 S16x30x17x1 S16x30x17 where
  offsetDims := []
  collapsedSliceDims := [1]
  operandBatchingDims := [0]
  startIndicesBatchingDims := [0]
  startIndexMap := [1]
  indexVectorDim := 3
  sliceSizes := ![1, 1]
  wf := gather_S16x1114112_S16x30x17x1_S16x30x17_n_1_0_0_1_3_11_wf

abbrev win0_0 : Pipeline.Window sig grid0 :=
  Pipeline.Window.ofSpec (Memref.whole main_v0) S17x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S17x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S17x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x17x256x256 : Shape := ⟨4, ![16, 17, 256, 256]⟩
abbrev S16x30x17x2 : Shape := ⟨4, ![16, 30, 17, 2]⟩
abbrev S_ : Shape := ⟨0, ![]⟩
abbrev S16x1114112 : Shape := ⟨2, ![16, 1114112]⟩
abbrev S16x30x17x1 : Shape := ⟨4, ![16, 30, 17, 1]⟩
abbrev S16x30x17 : Shape := ⟨3, ![16, 30, 17]⟩
abbrev S16x30 : Shape := ⟨2, ![16, 30]⟩
abbrev S16x30x1 : Shape := ⟨3, ![16, 30, 1]⟩
abbrev S16 : Shape := ⟨1, ![16]⟩
abbrev S30 : Shape := ⟨1, ![30]⟩
abbrev S16x1x30 : Shape := ⟨3, ![16, 1, 30]⟩
abbrev S16x30x30 : Shape := ⟨3, ![16, 30, 30]⟩
abbrev S30x30 : Shape := ⟨2, ![30, 30]⟩

abbrev nBuf : Space → Nat
  | .hbm => 117
  | .vmem => 0
  | .smem => 0
  | _ => 0

abbrev bufTy : (tb : Table) → Fin (tcTables nBuf tb) → BufTy
  | .hbm, ⟨0, _⟩ => ⟨S16x17x256x256, .f32⟩
  | .hbm, ⟨1, _⟩ => ⟨S16x17x256x256, .f32⟩
  | .hbm, ⟨2, _⟩ => ⟨S16x17x256x256, .f32⟩
  | .hbm, ⟨3, _⟩ => ⟨S16x17x256x256, .f32⟩
  | .hbm, ⟨4, _⟩ => ⟨S16x30x17x2, .i32⟩
  | .hbm, ⟨5, _⟩ => ⟨S16x17x256x256, .f32⟩
  | .hbm, ⟨6, _⟩ => ⟨S16x17x256x256, .f32⟩
  | .hbm, ⟨7, _⟩ => ⟨S16x17x256x256, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16x1114112, .f32⟩
  | .hbm, ⟨15, _⟩ => ⟨S16x30x17x1, .i32⟩
  | .hbm, ⟨16, _⟩ => ⟨S16x30x17, .i32⟩
  | .hbm, ⟨17, _⟩ => ⟨S16x30x17x1, .i32⟩
  | .hbm, ⟨18, _⟩ => ⟨S16x30x17, .i32⟩
  | .hbm, ⟨19, _⟩ => ⟨S_, .i32⟩
  | .hbm, ⟨20, _⟩ => ⟨S16x30x17, .i32⟩
  | .hbm, ⟨21, _⟩ => ⟨S16x30x17, .i1⟩
  | .hbm, ⟨22, _⟩ => ⟨S16x30x17, .f32⟩
  | .hbm, ⟨23, _⟩ => ⟨S_, .i32⟩
  | .hbm, ⟨24, _⟩ => ⟨S16x30x17, .i32⟩
  | .hbm, ⟨25, _⟩ => ⟨S16x30x17, .i1⟩
  | .hbm, ⟨26, _⟩ => ⟨S_, .i32⟩
  | .hbm, ⟨27, _⟩ => ⟨S16x30x17, .i32⟩
  | .hbm, ⟨28, _⟩ => ⟨S16x30x17, .i32⟩
  | .hbm, ⟨29, _⟩ => ⟨S16x30x17, .i32⟩
  | .hbm, ⟨30, _⟩ => ⟨S16x30x17x1, .i32⟩
  | .hbm, ⟨31, _⟩ => ⟨S16x30x17, .f32⟩
  | .hbm, ⟨32, _⟩ => ⟨S_, .f32⟩
  | .hbm, ⟨33, _⟩ => ⟨S16x30, .f32⟩
  | .hbm, ⟨34, _⟩ => ⟨S_, .f32⟩
  | .hbm, ⟨35, _⟩ => ⟨S16x30, .f32⟩
  | .hbm, ⟨36, _⟩ => ⟨S16x30, .i1⟩
  | .hbm, ⟨37, _⟩ => ⟨S_, .f32⟩
  | .hbm, ⟨38, _⟩ => ⟨S16x30, .f32⟩
  | .hbm, ⟨39, _⟩ => ⟨S16x30, .f32⟩
  | .hbm, ⟨40, _⟩ => ⟨S16x30x17, .f32⟩
  | .hbm, ⟨41, _⟩ => ⟨S_, .f32⟩
  | .hbm, ⟨42, _⟩ => ⟨S16x30, .f32⟩
  | .hbm, ⟨43, _⟩ => ⟨S16x30, .f32⟩
  | .hbm, ⟨44, _⟩ => ⟨S16x30x1, .f32⟩
  | .hbm, ⟨45, _⟩ => ⟨S16x30x17, .f32⟩
  | .hbm, ⟨46, _⟩ => ⟨S16x30x17, .f32⟩
  | .hbm, ⟨47, _⟩ => ⟨S16x30x17, .f32⟩
  | .hbm, ⟨48, _⟩ => ⟨S16x30x17, .f32⟩
  | .hbm, ⟨49, _⟩ => ⟨S_, .f32⟩
  | .hbm, ⟨50, _⟩ => ⟨S16x30, .f32⟩
  | .hbm, ⟨51, _⟩ => ⟨S16x30, .f32⟩
  | .hbm, ⟨52, _⟩ => ⟨S16x30, .f32⟩
  | .hbm, ⟨53, _⟩ => ⟨S_, .f32⟩
  | .hbm, ⟨54, _⟩ => ⟨S16, .f32⟩
  | .hbm, ⟨55, _⟩ => ⟨S_, .f32⟩
  | .hbm, ⟨56, _⟩ => ⟨S_, .f32⟩
  | .hbm, ⟨57, _⟩ => ⟨S30, .f32⟩
  | .hbm, ⟨58, _⟩ => ⟨S16x30, .f32⟩
  | .hbm, ⟨59, _⟩ => ⟨S16x30, .f32⟩
  | .hbm, ⟨60, _⟩ => ⟨S_, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S16, .f32⟩
  | .hbm, ⟨66, _⟩ => ⟨S16x30x1, .f32⟩
  | .hbm, ⟨67, _⟩ => ⟨S16x1x30, .f32⟩
  | .hbm, ⟨68, _⟩ => ⟨S16x30x30, .f32⟩
  | .hbm, ⟨69, _⟩ => ⟨S16x30x30, .f32⟩
  | .hbm, ⟨70, _⟩ => ⟨S16x30x30, .f32⟩
  | .hbm, ⟨71, _⟩ => ⟨S16x30x1, .i1⟩
  | .hbm, ⟨72, _⟩ => ⟨S16x1x30, .i1⟩
  | .hbm, ⟨73, _⟩ => ⟨S16x30x30, .i1⟩
  | .hbm, ⟨74, _⟩ => ⟨S16x30x30, .i1⟩
  | .hbm, ⟨75, _⟩ => ⟨S16x30x30, .i1⟩
  | .hbm, ⟨76, _⟩ => ⟨S16x30x30, .f32⟩
  | .hbm, ⟨77, _⟩ => ⟨S16x30x30, .f32⟩
  | .hbm, ⟨78, _⟩ => ⟨S16x30x30, .f32⟩
  | .hbm, ⟨79, _⟩ => ⟨S_, .f32⟩
  | .hbm, ⟨80, _⟩ => ⟨S_, .f32⟩
  | .hbm, ⟨81, _⟩ => ⟨S30x30, .f32⟩
  | .hbm, ⟨82, _⟩ => ⟨S16x30x30, .f32⟩
  | .hbm, ⟨83, _⟩ => ⟨S16x30x30, .f32⟩
  | .hbm, ⟨84, _⟩ => ⟨S_, .f32⟩
  | .hbm, ⟨85, _⟩ => ⟨S16, .f32⟩
  | .hbm, ⟨86, _⟩ => ⟨S_, .f32⟩
  | .hbm, ⟨87, _⟩ => ⟨S16, .f32⟩
  | .hbm, ⟨88, _⟩ => ⟨S16, .f32⟩
  | .hbm, ⟨89, _⟩ => ⟨S16, .f32⟩
  | .hbm, ⟨90, _⟩ => ⟨S_, .f32⟩
  | .hbm, ⟨91, _⟩ => ⟨S16, .f32⟩
  | .hbm, ⟨92, _⟩ => ⟨S16, .f32⟩
  | .hbm, ⟨93, _⟩ => ⟨S_, .f32⟩
  | .hbm, ⟨94, _⟩ => ⟨S16, .f32⟩
  | .hbm, ⟨95, _⟩ => ⟨S16, .i1⟩
  | .hbm, ⟨96, _⟩ => ⟨S16, .f32⟩
  | .hbm, ⟨97, _⟩ => ⟨S16, .f32⟩
  | .hbm, ⟨98, _⟩ => ⟨S_, .f32⟩
  | .hbm, ⟨99, _⟩ => ⟨S16, .f32⟩
  | .hbm, ⟨100, _⟩ => ⟨S16, .f32⟩
  | .hbm, ⟨101, _⟩ => ⟨S_, .f32⟩
  | .hbm, ⟨102, _⟩ => ⟨S_, .f32⟩
  | .hbm, ⟨103, _⟩ => ⟨S16, .f32⟩
  | .hbm, ⟨104, _⟩ => ⟨S16, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | _, _ => ⟨S16x17x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_cst_10 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_cst_12 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_13 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v56 : Ref sig .tc := ⟨.hbm, 83, rfl⟩
abbrev main_cst_14 : Ref sig .tc := ⟨.hbm, 84, rfl⟩
abbrev main_v57 : Ref sig .tc := ⟨.hbm, 85, rfl⟩
abbrev main_cst_15 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_16 : Ref sig .tc := ⟨.hbm, 90, rfl⟩
abbrev main_v61 : Ref sig .tc := ⟨.hbm, 91, rfl⟩
abbrev main_v62 : Ref sig .tc := ⟨.hbm, 92, rfl⟩
abbrev main_cst_17 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_18 : Ref sig .tc := ⟨.hbm, 98, rfl⟩
abbrev main_v67 : Ref sig .tc := ⟨.hbm, 99, rfl⟩
abbrev main_v68 : Ref sig .tc := ⟨.hbm, 100, rfl⟩
abbrev main_cst_19 : Ref sig .tc := ⟨.hbm, 101, rfl⟩
abbrev main_call2_v0 : Ref sig .tc := ⟨.hbm, 102, rfl⟩
abbrev main_call2_v1 : Ref sig .tc := ⟨.hbm, 103, rfl⟩
abbrev main_v69 : Ref sig .tc := ⟨.hbm, 104, rfl⟩
abbrev main_cst_20 : Ref sig .tc := ⟨.hbm, 105, rfl⟩
abbrev main_v70 : Ref sig .tc := ⟨.hbm, 106, rfl⟩
abbrev main_cst_21 : Ref sig .tc := ⟨.hbm, 107, rfl⟩
abbrev main_v71 : Ref sig .tc := ⟨.hbm, 108, rfl⟩
abbrev main_cst_22 : Ref sig .tc := ⟨.hbm, 109, rfl⟩
abbrev main_v72 : Ref sig .tc := ⟨.hbm, 110, rfl⟩
abbrev main_cst_23 : Ref sig .tc := ⟨.hbm, 111, rfl⟩
abbrev main_v73 : Ref sig .tc := ⟨.hbm, 112, rfl⟩
abbrev main_cst_24 : Ref sig .tc := ⟨.hbm, 113, rfl⟩
abbrev main_v74 : Ref sig .tc := ⟨.hbm, 114, rfl⟩
abbrev main_cst_25 : Ref sig .tc := ⟨.hbm, 115, rfl⟩
abbrev main_v75 : Ref sig .tc := ⟨.hbm, 116, rfl⟩

abbrev nD : Nat := 1
abbrev τ : Topo := Topo.v7x

variable {F : FTy → Type} [FloatOps F]

class Facts₀ : Prop where
  reducesTo_S16x17x256x256_S_d0_1_2_3 : S16x17x256x256.ReducesTo [0, 1, 2, 3] S_
  h_S_ : 0 < S_.numel
  shapeCasts_S16x17x256x256_S16x1114112 : S16x17x256x256.ShapeCasts S16x1114112
  slices_S16x30x17x2_S16x30x17x1_0_0_0_0 : S16x30x17x2.Slices ![0, 0, 0, 0] S16x30x17x1
  shapeCasts_S16x30x17x1_S16x30x17 : S16x30x17x1.ShapeCasts S16x30x17
  slices_S16x30x17x2_S16x30x17x1_0_0_0_1 : S16x30x17x2.Slices ![0, 0, 0, 1] S16x30x17x1
  bcast_S_S16x30x17 : S_.BroadcastsInDim S16x30x17 (![] : Fin 0 → Fin S16x30x17.rank)
  bcast_S16x30x17_S16x30x17x1_0_1_2 : S16x30x17.BroadcastsInDim S16x30x17x1 (![0, 1, 2] : Fin 3 → Fin S16x30x17x1.rank)
  reducesTo_S16x30x17_S16x30_d2 : S16x30x17.ReducesTo [2] S16x30
  bcast_S_S16x30 : S_.BroadcastsInDim S16x30 (![] : Fin 0 → Fin S16x30.rank)
  bcast_S16x30_S16x30x1_0_1 : S16x30.BroadcastsInDim S16x30x1 (![0, 1] : Fin 2 → Fin S16x30x1.rank)
  bcast_S16x30x1_S16x30x17_0_1_2 : S16x30x1.BroadcastsInDim S16x30x17 (![0, 1, 2] : Fin 3 → Fin S16x30x17.rank)
  reducesTo_S16x30_S16_d1 : S16x30.ReducesTo [1] S16
  bcast_S_S30 : S_.BroadcastsInDim S30 (![] : Fin 0 → Fin S30.rank)
  bcast_S30_S16x30_1 : S30.BroadcastsInDim S16x30 (![1] : Fin 1 → Fin S16x30.rank)
  bcast_S_S16 : S_.BroadcastsInDim S16 (![] : Fin 0 → Fin S16.rank)
  bcast_S16x30_S16x1x30_0_2 : S16x30.BroadcastsInDim S16x1x30 (![0, 2] : Fin 2 → Fin S16x1x30.rank)
  bcast_S16x30x1_S16x30x30_0_1_2 : S16x30x1.BroadcastsInDim S16x30x30 (![0, 1, 2] : Fin 3 → Fin S16x30x30.rank)
  bcast_S16x1x30_S16x30x30_0_1_2 : S16x1x30.BroadcastsInDim S16x30x30 (![0, 1, 2] : Fin 3 → Fin S16x30x30.rank)
  bcast_S_S30x30 : S_.BroadcastsInDim S30x30 (![] : Fin 0 → Fin S30x30.rank)
  bcast_S30x30_S16x30x30_1_2 : S30x30.BroadcastsInDim S16x30x30 (![1, 2] : Fin 2 → Fin S16x30x30.rank)
  reducesTo_S16x30x30_S16_d1_2 : S16x30x30.ReducesTo [1, 2] S16
  reducesTo_S16_S_d0 : S16.ReducesTo [0] S_
  gather_S16x1114112_S16x30x17x1_S16x30x17_n_1_0_0_1_3_11_wf : GatherDims.WF S16x1114112 S16x30x17x1 S16x30x17 [] [1] [0] [1] [0] 3 ![1, 1]

variable [Facts₀]

def gather_S16x1114112_S16x30x17x1_S16x30x17_n_1_0_0_1_3_11 : GatherDims S16x1114112 S16x30x17x1 S16x30x17 where
  offsetDims := []
  collapsedSliceDims := [1]
  operandBatchingDims := [0]
  startIndicesBatchingDims := [0]
  startIndexMap := [1]
  indexVectorDim := 3
  sliceSizes := ![1, 1]
  wf := gather_S16x1114112_S16x30x17x1_S16x30x17_n_1_0_0_1_3_11_wf

class Facts : Prop extends Facts₀ where

variable [Facts]
-- ==== Proof.FrameTailK.lean ====
/-
  The host side of `Kernel`'s frame: what the program's buffers hold when the one region is entered (three
  reshapes of the heat-map arguments come before it), that the 108 host operations after the region write
  neither an argument nor an array the region's windows stage, and so that every argument ends as launched.
-/
import proofs.«156532_j1597727834375_2_alg».proof.Proof.Gen.Kernel.Launch
import Idealize.ShloMosaic.Lib.Pipeline.FrameBody
import Idealize.ShloMosaic.Lib.Pipeline.FrameSuffix

set_option maxRecDepth 16384

noncomputable section

namespace Cert.Kernel.Frm

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the region is entered -/

/-- Core `c`'s buffer contents when the region is entered: the launch memory after the three reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The seven stretches of host operations after the region, in order. -/
abbrev tailOpss : List (List (HloOp τ sig (Elt F))) :=
  [hostOps1, hostOps1_1, hostOps1_2, hostOps1_3, hostOps1_4, hostOps1_5, hostOps1_6]

/-! ## No host operation allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-! ## @main around the region -/

/-- @main is the reshapes, the region, then the seven later stretches: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [hostOps0] tailOpss (by simp only [List.Forall]; exact hostOps0_sub)
    (by simp only [List.Forall]; exact hostOps0_fresh) main_chain

/-! ## What the later operations leave alone -/

/-- The arguments and the four arrays the region's windows stage. -/
def keptRefs : List (Ref sig .tc) :=
  [main_arg0, main_arg1, main_arg2, main_arg3, main_arg4, main_v0, main_v1, main_v2, main_v3]

/-- Each later operation writes only its own result buffer, and none of those is a kept reference: decided reference
    by reference. -/
local macro "keeps_stretch" : tactic => `(tactic| (
  simp only [hostOps1, hostOps1_1, hostOps1_2, hostOps1_3, hostOps1_4, hostOps1_5, hostOps1_6, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)))

theorem nw1 : ∀ r ∈ keptRefs, (hostOps1 : List (HloOp τ sig (Elt F))).Forall fun op => Proc.devRef (τ := τ) .tc r ∉ op.writes := by
  intro r hr
  simp only [keptRefs, List.mem_cons, List.mem_nil_iff, or_false] at hr
  rcases hr with rfl | rfl | rfl | rfl | rfl | rfl | rfl | rfl | rfl <;> keeps_stretch
theorem nw1_1 : ∀ r ∈ keptRefs, (hostOps1_1 : List (HloOp τ sig (Elt F))).Forall fun op => Proc.devRef (τ := τ) .tc r ∉ op.writes := by
  intro r hr
  simp only [keptRefs, List.mem_cons, List.mem_nil_iff, or_false] at hr
  rcases hr with rfl | rfl | rfl | rfl | rfl | rfl | rfl | rfl | rfl <;> keeps_stretch
theorem nw1_2 : ∀ r ∈ keptRefs, (hostOps1_2 : List (HloOp τ sig (Elt F))).Forall fun op => Proc.devRef (τ := τ) .tc r ∉ op.writes := by
  intro r hr
  simp only [keptRefs, List.mem_cons, List.mem_nil_iff, or_false] at hr
  rcases hr with rfl | rfl | rfl | rfl | rfl | rfl | rfl | rfl | rfl <;> keeps_stretch
theorem nw1_3 : ∀ r ∈ keptRefs, (hostOps1_3 : List (HloOp τ sig (Elt F))).Forall fun op => Proc.devRef (τ := τ) .tc r ∉ op.writes := by
  intro r hr
  simp only [keptRefs, List.mem_cons, List.mem_nil_iff, or_false] at hr
  rcases hr with rfl | rfl | rfl | rfl | rfl | rfl | rfl | rfl | rfl <;> keeps_stretch
theorem nw1_4 : ∀ r ∈ keptRefs, (hostOps1_4 : List (HloOp τ sig (Elt F))).Forall fun op => Proc.devRef (τ := τ) .tc r ∉ op.writes := by
  intro r hr
  simp only [keptRefs, List.mem_cons, List.mem_nil_iff, or_false] at hr
  rcases hr with rfl | rfl | rfl | rfl | rfl | rfl | rfl | rfl | rfl <;> keeps_stretch
theorem nw1_5 : ∀ r ∈ keptRefs, (hostOps1_5 : List (HloOp τ sig (Elt F))).Forall fun op => Proc.devRef (τ := τ) .tc r ∉ op.writes := by
  intro r hr
  simp only [keptRefs, List.mem_cons, List.mem_nil_iff, or_false] at hr
  rcases hr with rfl | rfl | rfl | rfl | rfl | rfl | rfl | rfl | rfl <;> keeps_stretch
theorem nw1_6 : ∀ r ∈ keptRefs, (hostOps1_6 : List (HloOp τ sig (Elt F))).Forall fun op => Proc.devRef (τ := τ) .tc r ∉ op.writes := by
  intro r hr
  simp only [keptRefs, List.mem_cons, List.mem_nil_iff, or_false] at hr
  rcases hr with rfl | rfl | rfl | rfl | rfl | rfl | rfl | rfl | rfl <;> keeps_stretch

/-- No operation after the region writes a kept reference. -/
theorem tail_nw (r : Ref sig .tc) (hr : r ∈ keptRefs) :
    ∀ ops ∈ (tailOpss : List (List (HloOp τ sig (Elt F)))), ∀ op ∈ ops, Proc.devRef (τ := τ) .tc r ∉ op.writes := by
  intro ops hops
  simp only [List.mem_cons, List.mem_nil_iff, or_false] at hops
  rcases hops with rfl | rfl | rfl | rfl | rfl | rfl | rfl
  · exact List.forall_iff_forall_mem.mp (nw1 r hr)
  · exact List.forall_iff_forall_mem.mp (nw1_1 r hr)
  · exact List.forall_iff_forall_mem.mp (nw1_2 r hr)
  · exact List.forall_iff_forall_mem.mp (nw1_3 r hr)
  · exact List.forall_iff_forall_mem.mp (nw1_4 r hr)
  · exact List.forall_iff_forall_mem.mp (nw1_5 r hr)
  · exact List.forall_iff_forall_mem.mp (nw1_6 r hr)

/-- The same over the stretches laid end to end. -/
theorem tail_nw_flat (r : Ref sig .tc) (hr : r ∈ keptRefs) :
    ∀ op ∈ (tailOpss : List (List (HloOp τ sig (Elt F)))).flatten, Proc.devRef (τ := τ) .tc r ∉ op.writes := by
  intro op hop
  obtain ⟨ops, hops, hop'⟩ := List.mem_flatten.mp hop
  exact tail_nw r hr ops hops op hop'

/-- A kept reference reads after the later operations as before them. -/
theorem after_tail_kept (r : Ref sig .tc) (hr : r ∈ keptRefs) (X : Valuation τ sig (Elt F)) :
    StableHlo.after (tailOpss : List (List (HloOp τ sig (Elt F)))).flatten X (Proc.devRef .tc r) = X (Proc.devRef .tc r) :=
  StableHlo.after_of_forall_not_mem _ _ (tail_nw_flat r hr)

/-- The later operations touch the pipeline's arrays and the bypassing buffers only. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tailOpss : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
/-- And write no array of the pipeline. -/
theorem sfx_keeps : ∀ ops ∈ (tailOpss : List (List (HloOp τ sig (Elt F)))), ∀ op ∈ ops,
    ∀ w, Proc.devRef .tc (Pipeline.arrRef spec0 w) ∉ op.writes := by
  intro ops hops op hop w
  exact tail_nw (Pipeline.arrRef spec0 w) (by revert w; decide) ops hops op hop

/-! ## The arguments when the region is entered, and at the end -/

/-- The reshapes write only their own results. -/
local macro "prefix_keeps" : tactic => `(tactic| (
  simp only [hostOps0, List.flatten_cons, List.flatten_nil, List.append_nil, List.cons_append, List.nil_append, List.Forall,
    StableHlo.reshape_writes, Finset.mem_singleton]
  repeat' apply And.intro
  all_goals exact StableHlo.devRef_ne_of_ne (by decide)))

theorem V_main_arg0 (c : Dev nD) : V m c main_arg0 = m ((c : Thread nD τ).loc main_arg0) :=
  StableHlo.after_of_forall_not_mem (b := Proc.devRef .tc main_arg0) _ _ (List.forall_iff_forall_mem.mp (by prefix_keeps))
theorem V_main_arg1 (c : Dev nD) : V m c main_arg1 = m ((c : Thread nD τ).loc main_arg1) :=
  StableHlo.after_of_forall_not_mem (b := Proc.devRef .tc main_arg1) _ _ (List.forall_iff_forall_mem.mp (by prefix_keeps))
theorem V_main_arg2 (c : Dev nD) : V m c main_arg2 = m ((c : Thread nD τ).loc main_arg2) :=
  StableHlo.after_of_forall_not_mem (b := Proc.devRef .tc main_arg2) _ _ (List.forall_iff_forall_mem.mp (by prefix_keeps))
theorem V_main_arg3 (c : Dev nD) : V m c main_arg3 = m ((c : Thread nD τ).loc main_arg3) :=
  StableHlo.after_of_forall_not_mem (b := Proc.devRef .tc main_arg3) _ _ (List.forall_iff_forall_mem.mp (by prefix_keeps))
theorem V_main_arg4 (c : Dev nD) : V m c main_arg4 = m ((c : Thread nD τ).loc main_arg4) :=
  StableHlo.after_of_forall_not_mem (b := Proc.devRef .tc main_arg4) _ _ (List.forall_iff_forall_mem.mp (by prefix_keeps))

section Ends
variable (dats : (p : Fin 1) → (c : Dev nD) → Dat τ (Elt F) Unit ℕ (UR sig nD τ) ℕ (cfgs p) c) (c : Dev nD)

/-- An argument is no window's array and no later operation writes it: it ends as launched. -/
theorem W_main_arg0 : Pipeline.afterTail₀ cfgs dats 0 (V0 m) tailOpss c main_arg0 = m ((c : Thread nD τ).loc main_arg0) := by
  unfold Pipeline.afterTail₀
  rw [after_tail_kept main_arg0 (by decide),
    Pipeline.withArrays_of_ne _ c (V0 m c) _ main_arg0 (by exact (by decide : ∀ w, Pipeline.arrRef spec0 w ≠ main_arg0))]
  exact V_main_arg0 m c
theorem W_main_arg1 : Pipeline.afterTail₀ cfgs dats 0 (V0 m) tailOpss c main_arg1 = m ((c : Thread nD τ).loc main_arg1) := by
  unfold Pipeline.afterTail₀
  rw [after_tail_kept main_arg1 (by decide),
    Pipeline.withArrays_of_ne _ c (V0 m c) _ main_arg1 (by exact (by decide : ∀ w, Pipeline.arrRef spec0 w ≠ main_arg1))]
  exact V_main_arg1 m c
theorem W_main_arg2 : Pipeline.afterTail₀ cfgs dats 0 (V0 m) tailOpss c main_arg2 = m ((c : Thread nD τ).loc main_arg2) := by
  unfold Pipeline.afterTail₀
  rw [after_tail_kept main_arg2 (by decide),
    Pipeline.withArrays_of_ne _ c (V0 m c) _ main_arg2 (by exact (by decide : ∀ w, Pipeline.arrRef spec0 w ≠ main_arg2))]
  exact V_main_arg2 m c
theorem W_main_arg3 : Pipeline.afterTail₀ cfgs dats 0 (V0 m) tailOpss c main_arg3 = m ((c : Thread nD τ).loc main_arg3) := by
  unfold Pipeline.afterTail₀
  rw [after_tail_kept main_arg3 (by decide),
    Pipeline.withArrays_of_ne _ c (V0 m c) _ main_arg3 (by exact (by decide : ∀ w, Pipeline.arrRef spec0 w ≠ main_arg3))]
  exact V_main_arg3 m c
theorem W_main_arg4 : Pipeline.afterTail₀ cfgs dats 0 (V0 m) tailOpss c main_arg4 = m ((c : Thread nD τ).loc main_arg4) := by
  unfold Pipeline.afterTail₀
  rw [after_tail_kept main_arg4 (by decide),
    Pipeline.withArrays_of_ne _ c (V0 m c) _ main_arg4 (by exact (by decide : ∀ w, Pipeline.arrRef spec0 w ≠ main_arg4))]
  exact V_main_arg4 m c
end Ends

end Cert.Kernel.Frm

end
-- ==== Proof.FrameBodyK.lean ====
/-
  The kernel body of `Kernel` on whole staging buffers: it loads its three input blocks whole, and stores one
  value over the whole [1,8,128] output tile (the block sum of (p-g)·(p-g)·k, spread over the tile). What the output
  buffer holds afterwards is that one store read back; the old contents it also loads are never used.
-/
import proofs.«156532_j1597727834375_2_alg».proof.Proof.Gen.Kernel.Launch
import proofs.«156532_j1597727834375_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole input block, as the rectangle the body loads. -/
abbrev rIn : Rect S17x256x256 := Rect.unit (s := S17x256x256) ![0, 0, 0] S17x256x256.size inb_S17x256x256_S17x256x256_0_0_0
/-- The whole output tile, as the rectangle the body stores. -/
abbrev rOut : Rect S1x8x128 := Rect.unit (s := S1x8x128) ![0, 0, 0] S1x8x128.size inb_S1x8x128_S1x8x128_0_0_0

/-- The output tile after the body, from the three input blocks: its one store read back. -/
def out0_3 (x0 x1 x2 : Vec F S17x256x256 .f32) : Vec F S1x8x128 .f32 :=
  View.canon [⟨rOut, k0_pay1 (View.ld x0 rIn) (View.ld x1 rIn) (View.ld x2 rIn)⟩]

/-- The one store covers the tile. -/
theorem cover0_3 (p0 : Vec F S1x8x128 .f32) (y : S1x8x128.Idx) :
    ∃ pc ∈ ([⟨rOut, p0⟩] : List (View.Piece (Elt F) S1x8x128 .f32)), y ∈ pc.1.set :=
  View.cover_of_tiled [⟨rOut, p0⟩] S1x8x128.size (by rfl) y

set_option maxHeartbeats 1000000 in
/-- The body on whole staging buffers, the inputs' at contents `x0 x1 x2` and the output's at anything, runs to the
    continuation with the inputs' as they were and the output's at `out0_3` of the inputs'. -/
theorem sound_kernel (c : Dev nD) (E : Set ℕ) (i : grid0.Coords)
    (arg1 : Memref sig .tc .vmem S17x256x256 .f32) (harg1 : arg1.IsWhole) (arg2 : Memref sig .tc .vmem S17x256x256 .f32) (harg2 : arg2.IsWhole)
    (arg3 : Memref sig .tc .vmem S17x256x256 .f32) (harg3 : arg3.IsWhole) (arg4 : Memref sig .tc .vmem S1x8x128 .f32) (harg4 : arg4.IsWhole)
    (x0 : Vec F S17x256x256 .f32) (x1 : Vec F S17x256x256 .f32) (x2 : Vec F S17x256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_heatmap_partial_kernel i arg1 harg1 arg2 harg2 arg3 harg3 arg4 harg4) K := by
  simp only [cc0_heatmap_partial_kernel_eq_skeleton]; unfold cc0_heatmap_partial_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

end Cert.Kernel.Frm

end
-- ==== Proof.FrameK.lean ====
/-
  The frame of `Kernel`: the proof data of its one pipeline (each input window's staging buffer holds its block of
  the reshaped argument at every grid point; the output window's holds the body's one store), the body obligation
  from the body's triple, the run around the region, and from it that the five arguments end as launched.
-/
import proofs.«156532_j1597727834375_2_alg».proof.Proof.FrameTailK
import proofs.«156532_j1597727834375_2_alg».proof.Proof.FrameBodyK
import proofs.«156532_j1597727834375_2_alg».proof.Proof.Gen.Kernel.Points

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The five arguments are unscoped buffers that no window stages: the run's post gives each at what the later host
    operations leave, which is the launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c)⟩) h

/-! ## The pipeline's proof data -/

/-- The arrays as the region finds them; after the body at point `t` each input's buffer at its block and the
    output's at the body's store of the three input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    library computes from the proof data and every other unscoped buffer as the later host operations leave it. -/
theorem run_main : θ_run defs (onTc (τ := τ) (main (F := F))) (s₀ m ρ)
    (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.Kernel.Frm

end
-- ==== Proof.FrameTailKI.lean ====
/-
  The host side of `KernelIdeal`'s frame: what the program's buffers hold when the one region is entered (three
  reshapes of the heat-map arguments come before it), that the 108 host operations after the region write
  neither an argument nor an array the region's windows stage, and so that every argument ends as launched.
-/
import proofs.«156532_j1597727834375_2_alg».proof.Proof.Gen.KernelIdeal.Launch
import Idealize.ShloMosaic.Lib.Pipeline.FrameBody
import Idealize.ShloMosaic.Lib.Pipeline.FrameSuffix

set_option maxRecDepth 16384

noncomputable section

namespace Cert.KernelIdeal.Frm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the region is entered -/

/-- Core `c`'s buffer contents when the region is entered: the launch memory after the three reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The seven stretches of host operations after the region, in order. -/
abbrev tailOpss : List (List (HloOp τ sig (Elt F))) :=
  [hostOps1, hostOps1_1, hostOps1_2, hostOps1_3, hostOps1_4, hostOps1_5, hostOps1_6]

/-! ## No host operation allocates -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-! ## @main around the region -/

/-- @main is the reshapes, the region, then the seven later stretches: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [hostOps0] tailOpss (by simp only [List.Forall]; exact hostOps0_sub)
    (by simp only [List.Forall]; exact hostOps0_fresh) main_chain

/-! ## What the later operations leave alone -/

/-- The arguments and the four arrays the region's windows stage. -/
def keptRefs : List (Ref sig .tc) :=
  [main_arg0, main_arg1, main_arg2, main_arg3, main_arg4, main_v0, main_v1, main_v2, main_v3]

/-- Each later operation writes only its own result buffer, and none of those is a kept reference: decided reference
    by reference. -/
local macro "keeps_stretch" : tactic => `(tactic| (
  simp only [hostOps1, hostOps1_1, hostOps1_2, hostOps1_3, hostOps1_4, hostOps1_5, hostOps1_6, List.Forall,
    StableHlo.nullary_writes, StableHlo.unary_writes, StableHlo.binary_writes, StableHlo.ternary_writes,
    StableHlo.reshape_writes, Finset.mem_singleton]
  repeat' apply And.intro
  all_goals exact StableHlo.devRef_ne_of_ne (by decide)))

theorem nw1 : ∀ r ∈ keptRefs, (hostOps1 : List (HloOp τ sig (Elt F))).Forall fun op => Proc.devRef (τ := τ) .tc r ∉ op.writes := by
  intro r hr
  simp only [keptRefs, List.mem_cons, List.mem_nil_iff, or_false] at hr
  rcases hr with rfl | rfl | rfl | rfl | rfl | rfl | rfl | rfl | rfl <;> keeps_stretch
theorem nw1_1 : ∀ r ∈ keptRefs, (hostOps1_1 : List (HloOp τ sig (Elt F))).Forall fun op => Proc.devRef (τ := τ) .tc r ∉ op.writes := by
  intro r hr
  simp only [keptRefs, List.mem_cons, List.mem_nil_iff, or_false] at hr
  rcases hr with rfl | rfl | rfl | rfl | rfl | rfl | rfl | rfl | rfl <;> keeps_stretch
theorem nw1_2 : ∀ r ∈ keptRefs, (hostOps1_2 : List (HloOp τ sig (Elt F))).Forall fun op => Proc.devRef (τ := τ) .tc r ∉ op.writes := by
  intro r hr
  simp only [keptRefs, List.mem_cons, List.mem_nil_iff, or_false] at hr
  rcases hr with rfl | rfl | rfl | rfl | rfl | rfl | rfl | rfl | rfl <;> keeps_stretch
theorem nw1_3 : ∀ r ∈ keptRefs, (hostOps1_3 : List (HloOp τ sig (Elt F))).Forall fun op => Proc.devRef (τ := τ) .tc r ∉ op.writes := by
  intro r hr
  simp only [keptRefs, List.mem_cons, List.mem_nil_iff, or_false] at hr
  rcases hr with rfl | rfl | rfl | rfl | rfl | rfl | rfl | rfl | rfl <;> keeps_stretch
theorem nw1_4 : ∀ r ∈ keptRefs, (hostOps1_4 : List (HloOp τ sig (Elt F))).Forall fun op => Proc.devRef (τ := τ) .tc r ∉ op.writes := by
  intro r hr
  simp only [keptRefs, List.mem_cons, List.mem_nil_iff, or_false] at hr
  rcases hr with rfl | rfl | rfl | rfl | rfl | rfl | rfl | rfl | rfl <;> keeps_stretch
theorem nw1_5 : ∀ r ∈ keptRefs, (hostOps1_5 : List (HloOp τ sig (Elt F))).Forall fun op => Proc.devRef (τ := τ) .tc r ∉ op.writes := by
  intro r hr
  simp only [keptRefs, List.mem_cons, List.mem_nil_iff, or_false] at hr
  rcases hr with rfl | rfl | rfl | rfl | rfl | rfl | rfl | rfl | rfl <;> keeps_stretch
theorem nw1_6 : ∀ r ∈ keptRefs, (hostOps1_6 : List (HloOp τ sig (Elt F))).Forall fun op => Proc.devRef (τ := τ) .tc r ∉ op.writes := by
  intro r hr
  simp only [keptRefs, List.mem_cons, List.mem_nil_iff, or_false] at hr
  rcases hr with rfl | rfl | rfl | rfl | rfl | rfl | rfl | rfl | rfl <;> keeps_stretch

/-- No operation after the region writes a kept reference. -/
theorem tail_nw (r : Ref sig .tc) (hr : r ∈ keptRefs) :
    ∀ ops ∈ (tailOpss : List (List (HloOp τ sig (Elt F)))), ∀ op ∈ ops, Proc.devRef (τ := τ) .tc r ∉ op.writes := by
  intro ops hops
  simp only [List.mem_cons, List.mem_nil_iff, or_false] at hops
  rcases hops with rfl | rfl | rfl | rfl | rfl | rfl | rfl
  · exact List.forall_iff_forall_mem.mp (nw1 r hr)
  · exact List.forall_iff_forall_mem.mp (nw1_1 r hr)
  · exact List.forall_iff_forall_mem.mp (nw1_2 r hr)
  · exact List.forall_iff_forall_mem.mp (nw1_3 r hr)
  · exact List.forall_iff_forall_mem.mp (nw1_4 r hr)
  · exact List.forall_iff_forall_mem.mp (nw1_5 r hr)
  · exact List.forall_iff_forall_mem.mp (nw1_6 r hr)

/-- The same over the stretches laid end to end. -/
theorem tail_nw_flat (r : Ref sig .tc) (hr : r ∈ keptRefs) :
    ∀ op ∈ (tailOpss : List (List (HloOp τ sig (Elt F)))).flatten, Proc.devRef (τ := τ) .tc r ∉ op.writes := by
  intro op hop
  obtain ⟨ops, hops, hop'⟩ := List.mem_flatten.mp hop
  exact tail_nw r hr ops hops op hop'

/-- A kept reference reads after the later operations as before them. -/
theorem after_tail_kept (r : Ref sig .tc) (hr : r ∈ keptRefs) (X : Valuation τ sig (Elt F)) :
    StableHlo.after (tailOpss : List (List (HloOp τ sig (Elt F)))).flatten X (Proc.devRef .tc r) = X (Proc.devRef .tc r) :=
  StableHlo.after_of_forall_not_mem _ _ (tail_nw_flat r hr)

/-- The later operations touch the pipeline's arrays and the bypassing buffers only. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tailOpss : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
/-- And write no array of the pipeline. -/
theorem sfx_keeps : ∀ ops ∈ (tailOpss : List (List (HloOp τ sig (Elt F)))), ∀ op ∈ ops,
    ∀ w, Proc.devRef .tc (Pipeline.arrRef spec0 w) ∉ op.writes := by
  intro ops hops op hop w
  exact tail_nw (Pipeline.arrRef spec0 w) (by revert w; decide) ops hops op hop

/-! ## The arguments when the region is entered, and at the end -/

/-- The reshapes write only their own results. -/
local macro "prefix_keeps" : tactic => `(tactic| (
  simp only [hostOps0, List.flatten_cons, List.flatten_nil, List.append_nil, List.cons_append, List.nil_append, List.Forall,
    StableHlo.reshape_writes, Finset.mem_singleton]
  repeat' apply And.intro
  all_goals exact StableHlo.devRef_ne_of_ne (by decide)))

theorem V_main_arg0 (c : Dev nD) : V m c main_arg0 = m ((c : Thread nD τ).loc main_arg0) :=
  StableHlo.after_of_forall_not_mem (b := Proc.devRef .tc main_arg0) _ _ (List.forall_iff_forall_mem.mp (by prefix_keeps))
theorem V_main_arg1 (c : Dev nD) : V m c main_arg1 = m ((c : Thread nD τ).loc main_arg1) :=
  StableHlo.after_of_forall_not_mem (b := Proc.devRef .tc main_arg1) _ _ (List.forall_iff_forall_mem.mp (by prefix_keeps))
theorem V_main_arg2 (c : Dev nD) : V m c main_arg2 = m ((c : Thread nD τ).loc main_arg2) :=
  StableHlo.after_of_forall_not_mem (b := Proc.devRef .tc main_arg2) _ _ (List.forall_iff_forall_mem.mp (by prefix_keeps))
theorem V_main_arg3 (c : Dev nD) : V m c main_arg3 = m ((c : Thread nD τ).loc main_arg3) :=
  StableHlo.after_of_forall_not_mem (b := Proc.devRef .tc main_arg3) _ _ (List.forall_iff_forall_mem.mp (by prefix_keeps))
theorem V_main_arg4 (c : Dev nD) : V m c main_arg4 = m ((c : Thread nD τ).loc main_arg4) :=
  StableHlo.after_of_forall_not_mem (b := Proc.devRef .tc main_arg4) _ _ (List.forall_iff_forall_mem.mp (by prefix_keeps))

section Ends
variable (dats : (p : Fin 1) → (c : Dev nD) → Dat τ (Elt F) Unit ℕ (UR sig nD τ) ℕ (cfgs p) c) (c : Dev nD)

/-- An argument is no window's array and no later operation writes it: it ends as launched. -/
theorem W_main_arg0 : Pipeline.afterTail₀ cfgs dats 0 (V0 m) tailOpss c main_arg0 = m ((c : Thread nD τ).loc main_arg0) := by
  unfold Pipeline.afterTail₀
  rw [after_tail_kept main_arg0 (by decide),
    Pipeline.withArrays_of_ne _ c (V0 m c) _ main_arg0 (by exact (by decide : ∀ w, Pipeline.arrRef spec0 w ≠ main_arg0))]
  exact V_main_arg0 m c
theorem W_main_arg1 : Pipeline.afterTail₀ cfgs dats 0 (V0 m) tailOpss c main_arg1 = m ((c : Thread nD τ).loc main_arg1) := by
  unfold Pipeline.afterTail₀
  rw [after_tail_kept main_arg1 (by decide),
    Pipeline.withArrays_of_ne _ c (V0 m c) _ main_arg1 (by exact (by decide : ∀ w, Pipeline.arrRef spec0 w ≠ main_arg1))]
  exact V_main_arg1 m c
theorem W_main_arg2 : Pipeline.afterTail₀ cfgs dats 0 (V0 m) tailOpss c main_arg2 = m ((c : Thread nD τ).loc main_arg2) := by
  unfold Pipeline.afterTail₀
  rw [after_tail_kept main_arg2 (by decide),
    Pipeline.withArrays_of_ne _ c (V0 m c) _ main_arg2 (by exact (by decide : ∀ w, Pipeline.arrRef spec0 w ≠ main_arg2))]
  exact V_main_arg2 m c
theorem W_main_arg3 : Pipeline.afterTail₀ cfgs dats 0 (V0 m) tailOpss c main_arg3 = m ((c : Thread nD τ).loc main_arg3) := by
  unfold Pipeline.afterTail₀
  rw [after_tail_kept main_arg3 (by decide),
    Pipeline.withArrays_of_ne _ c (V0 m c) _ main_arg3 (by exact (by decide : ∀ w, Pipeline.arrRef spec0 w ≠ main_arg3))]
  exact V_main_arg3 m c
theorem W_main_arg4 : Pipeline.afterTail₀ cfgs dats 0 (V0 m) tailOpss c main_arg4 = m ((c : Thread nD τ).loc main_arg4) := by
  unfold Pipeline.afterTail₀
  rw [after_tail_kept main_arg4 (by decide),
    Pipeline.withArrays_of_ne _ c (V0 m c) _ main_arg4 (by exact (by decide : ∀ w, Pipeline.arrRef spec0 w ≠ main_arg4))]
  exact V_main_arg4 m c
end Ends

end Cert.KernelIdeal.Frm

end
-- ==== Proof.FrameBodyKI.lean ====
/-
  The kernel body of `KernelIdeal` on whole staging buffers: it loads its three input blocks whole, and stores one
  value over the whole [1,8,128] output tile (the block sum of (p-g)·(p-g)·k, spread over the tile). What the output
  buffer holds afterwards is that one store read back; the old contents it also loads are never used.
-/
import proofs.«156532_j1597727834375_2_alg».proof.Proof.Gen.KernelIdeal.Launch
import proofs.«156532_j1597727834375_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole input block, as the rectangle the body loads. -/
abbrev rIn : Rect S17x256x256 := Rect.unit (s := S17x256x256) ![0, 0, 0] S17x256x256.size inb_S17x256x256_S17x256x256_0_0_0
/-- The whole output tile, as the rectangle the body stores. -/
abbrev rOut : Rect S1x8x128 := Rect.unit (s := S1x8x128) ![0, 0, 0] S1x8x128.size inb_S1x8x128_S1x8x128_0_0_0

/-- The output tile after the body, from the three input blocks: its one store read back. -/
def out0_3 (x0 x1 x2 : Vec F S17x256x256 .f32) : Vec F S1x8x128 .f32 :=
  View.canon [⟨rOut, k0_pay1 (View.ld x0 rIn) (View.ld x1 rIn) (View.ld x2 rIn)⟩]

/-- The one store covers the tile. -/
theorem cover0_3 (p0 : Vec F S1x8x128 .f32) (y : S1x8x128.Idx) :
    ∃ pc ∈ ([⟨rOut, p0⟩] : List (View.Piece (Elt F) S1x8x128 .f32)), y ∈ pc.1.set :=
  View.cover_of_tiled [⟨rOut, p0⟩] S1x8x128.size (by rfl) y

set_option maxHeartbeats 1000000 in
/-- The body on whole staging buffers, the inputs' at contents `x0 x1 x2` and the output's at anything, runs to the
    continuation with the inputs' as they were and the output's at `out0_3` of the inputs'. -/
theorem sound_kernel (c : Dev nD) (E : Set ℕ) (i : grid0.Coords)
    (arg1 : Memref sig .tc .vmem S17x256x256 .f32) (harg1 : arg1.IsWhole) (arg2 : Memref sig .tc .vmem S17x256x256 .f32) (harg2 : arg2.IsWhole)
    (arg3 : Memref sig .tc .vmem S17x256x256 .f32) (harg3 : arg3.IsWhole) (arg4 : Memref sig .tc .vmem S1x8x128 .f32) (harg4 : arg4.IsWhole)
    (x0 : Vec F S17x256x256 .f32) (x1 : Vec F S17x256x256 .f32) (x2 : Vec F S17x256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_heatmap_partial_kernel i arg1 harg1 arg2 harg2 arg3 harg3 arg4 harg4) K := by
  simp only [cc0_heatmap_partial_kernel_eq_skeleton]; unfold cc0_heatmap_partial_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

end Cert.KernelIdeal.Frm

end
-- ==== Proof.FrameKI.lean ====
/-
  The frame of `KernelIdeal`: the proof data of its one pipeline (each input window's staging buffer holds its block of
  the reshaped argument at every grid point; the output window's holds the body's one store), the body obligation
  from the body's triple, the run around the region, and from it that the five arguments end as launched.
-/
import proofs.«156532_j1597727834375_2_alg».proof.Proof.FrameTailKI
import proofs.«156532_j1597727834375_2_alg».proof.Proof.FrameBodyKI
import proofs.«156532_j1597727834375_2_alg».proof.Proof.Gen.KernelIdeal.Points

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The five arguments are unscoped buffers that no window stages: the run's post gives each at what the later host
    operations leave, which is the launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c)⟩) h

/-! ## The pipeline's proof data -/

/-- The arrays as the region finds them; after the body at point `t` each input's buffer at its block and the
    output's at the body's store of the three input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what the
    library computes from the proof data and every other unscoped buffer as the later host operations leave it. -/
theorem run_main : θ_run defs (onTc (τ := τ) (main (F := F))) (s₀ m ρ)
    (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.KernelIdeal.Frm

end
-- ==== Proof.BlockRead.lean ====
/-
  The blocks of the idealized kernel's windows, read off the argument arrays. The three heat-map arguments are
  reshaped [16,17,256,256] → [272,256,256] before the region, and input window w's block at grid point t is rows
  17 t … 17 t + 16 of the reshaped array: entry (a, h, w) of the block is entry (t, a, h, w) of the argument. The
  output window's block at point t is tile t of the [16,8,128] result; the sixteen tiles cover it.
-/
import proofs.«156532_j1597727834375_2_alg».proof.Proof.FrameKI
import Idealize.ShloMosaic.Lib.Pipeline.Value
import Idealize.ShloMosaic.Lib.ValueIdx
import Idealize.ShloMosaic.Lib.StableHlo.Run

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-! ## The staged arrays are the reshaped arguments -/

theorem V_main_v0 (c : Dev nD) : (V m c main_v0 : S272x256x256.Idx → EReal)
    = shapeCast S272x256x256 (m ((c : Thread nD τ).loc main_arg0)) shapeCasts_S16x17x256x256_S272x256x256 := by
  show StableHlo.after hostOps0 (fun b => m (c, b)) (Proc.devRef .tc main_v0) = _
  after_results; rfl
theorem V_main_v1 (c : Dev nD) : (V m c main_v1 : S272x256x256.Idx → EReal)
    = shapeCast S272x256x256 (m ((c : Thread nD τ).loc main_arg1)) shapeCasts_S16x17x256x256_S272x256x256 := by
  show StableHlo.after hostOps0 (fun b => m (c, b)) (Proc.devRef .tc main_v1) = _
  after_results; rfl
theorem V_main_v2 (c : Dev nD) : (V m c main_v2 : S272x256x256.Idx → EReal)
    = shapeCast S272x256x256 (m ((c : Thread nD τ).loc main_arg2)) shapeCasts_S16x17x256x256_S272x256x256 := by
  show StableHlo.after hostOps0 (fun b => m (c, b)) (Proc.devRef .tc main_v2) = _
  after_results; rfl

/-- The reshape read at (17 b + a, h, w) is the argument at (b, a, h, w): the two row-major positions agree. -/
theorem reshape_read (x : S16x17x256x256.Idx → EReal) (j : S272x256x256.Idx) (b : Fin 16) (a : Fin 17) (h : Fin 256) (w : Fin 256)
    (h0 : (j 0).val = b.val * 17 + a.val) (h1 : (j 1).val = h.val) (h2 : (j 2).val = w.val) :
    shapeCast S272x256x256 x shapeCasts_S16x17x256x256_S272x256x256 j = x (ix4 b a h w) := by
  refine shapeCast_apply x _ j (ix4 b a h w) ?_
  rw [Shape.rowMajor_val_four, Shape.rowMajor_val_three]
  show (((b.val * 17 + a.val) * 256 + h.val) * 256 + w.val) = ((j 0).val * 256 + (j 1).val) * 256 + (j 2).val
  rw [h0, h1, h2]

/-! ## The printed index maps over the grid -/

/-- Every window moves along its leading axis with the grid point and stays at block 0 on the other two. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

theorem N16 : cfg0.N = 16 := N_0

/-- The grid point as an image number. -/
def img (t : Fin cfg0.N) : Fin 16 := ⟨t.val, by have h1 := t.isLt; have h2 : cfg0.N = 16 := N16; omega⟩

/-! ## An input block read at an entry -/

theorem block0_read (c : Dev nD) (t : Fin cfg0.N) (y : S17x256x256.Idx) :
    iblk m c 0 t y = m ((c : Thread nD τ).loc main_arg0) (ix4 (img t) (y 0) (y 1) (y 2)) := by
  obtain ⟨e0, e1, e2, -⟩ := idx_facts t
  show V m c main_v0 (((cfg0.win 0).blk t).view.emb y) = _
  rw [V_main_v0]
  refine reshape_read _ _ (img t) (y 0) (y 1) (y 2) ?_ ?_ ?_
  · show win0_0.index t (0 : Fin 3) * 17 + 1 * (y 0).val = t.val * 17 + (y 0).val
    rw [e0]; omega
  · show win0_0.index t (1 : Fin 3) * 256 + 1 * (y 1).val = (y 1).val
    rw [e1]; omega
  · show win0_0.index t (2 : Fin 3) * 256 + 1 * (y 2).val = (y 2).val
    rw [e2]; omega
theorem block1_read (c : Dev nD) (t : Fin cfg0.N) (y : S17x256x256.Idx) :
    iblk m c 1 t y = m ((c : Thread nD τ).loc main_arg1) (ix4 (img t) (y 0) (y 1) (y 2)) := by
  obtain ⟨-, -, -, e0, e1, e2, -⟩ := idx_facts t
  show V m c main_v1 (((cfg0.win 1).blk t).view.emb y) = _
  rw [V_main_v1]
  refine reshape_read _ _ (img t) (y 0) (y 1) (y 2) ?_ ?_ ?_
  · show win0_1.index t (0 : Fin 3) * 17 + 1 * (y 0).val = t.val * 17 + (y 0).val
    rw [e0]; omega
  · show win0_1.index t (1 : Fin 3) * 256 + 1 * (y 1).val = (y 1).val
    rw [e1]; omega
  · show win0_1.index t (2 : Fin 3) * 256 + 1 * (y 2).val = (y 2).val
    rw [e2]; omega
theorem block2_read (c : Dev nD) (t : Fin cfg0.N) (y : S17x256x256.Idx) :
    iblk m c 2 t y = m ((c : Thread nD τ).loc main_arg2) (ix4 (img t) (y 0) (y 1) (y 2)) := by
  obtain ⟨-, -, -, -, -, -, e0, e1, e2, -⟩ := idx_facts t
  show V m c main_v2 (((cfg0.win 2).blk t).view.emb y) = _
  rw [V_main_v2]
  refine reshape_read _ _ (img t) (y 0) (y 1) (y 2) ?_ ?_ ?_
  · show win0_2.index t (0 : Fin 3) * 17 + 1 * (y 0).val = t.val * 17 + (y 0).val
    rw [e0]; omega
  · show win0_2.index t (1 : Fin 3) * 256 + 1 * (y 1).val = (y 1).val
    rw [e1]; omega
  · show win0_2.index t (2 : Fin 3) * 256 + 1 * (y 2).val = (y 2).val
    rw [e2]; omega

/-! ## The output's tiles -/

/-- An index of the [16,8,128] result lies in point t's block iff each coordinate is in the block's range. -/
theorem mem_blk3 (t : Fin cfg0.N) (i : S16x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v3).slice (win0_3.rect t)).set ↔ _
  rw [View.set_slice_whole, Rect.mem_set_unit]
  exact Iff.rfl

/-- The leading coordinate of an entry of point t's output block is t. -/
theorem out_emb0 (t : Fin cfg0.N) (j : S1x8x128.Idx) : ((((cfg0.win 3).blk t).view.emb j) 0).val = t.val := by
  obtain ⟨-, -, -, -, -, -, -, -, -, e0, -⟩ := idx_facts t
  show win0_3.index t (0 : Fin 3) * 1 + 1 * (j 0).val = t.val
  have hj : (j 0).val < 1 := (j 0).isLt
  rw [e0]; omega

/-- Every entry of the result lies in the block of the point numbered by its leading coordinate. -/
theorem cover3 (i : S16x8x128.Idx) : ∃ t : Fin cfg0.N, (cfg0.win 3).flush t = true ∧ i ∈ ((cfg0.win 3).blk t).view.set := by
  have hi0 : (i 0).val < 16 := (i 0).isLt
  have hi1 : (i 1).val < 8 := (i 1).isLt
  have hi2 : (i 2).val < 128 := (i 2).isLt
  refine ⟨⟨(i 0).val, by rw [N16]; exact hi0⟩, flush0_3 _, ?_⟩
  rw [mem_blk3]
  obtain ⟨-, -, -, -, -, -, -, -, -, e0, e1, e2⟩ := idx_facts ⟨(i 0).val, by rw [N16]; exact hi0⟩
  intro a
  match a with
  | ⟨0, _⟩ => show win0_3.index _ (0 : Fin 3) * 1 ≤ (i 0).val ∧ (i 0).val < win0_3.index _ (0 : Fin 3) * 1 + 1; rw [e0]; constructor <;> (simp only []; omega)
  | ⟨1, _⟩ => show win0_3.index _ (1 : Fin 3) * 8 ≤ (i 1).val ∧ (i 1).val < win0_3.index _ (1 : Fin 3) * 8 + 8; rw [e1]; omega
  | ⟨2, _⟩ => show win0_3.index _ (2 : Fin 3) * 128 ≤ (i 2).val ∧ (i 2).val < win0_3.index _ (2 : Fin 3) * 128 + 128; rw [e2]; omega

end Cert.KernelIdeal.Val

end
-- ==== Proof.LibSumIdx.lean ====
/- A sum over the index set of a rank-1, rank-3 or rank-4 shape is the nested sum over its coordinates: the index set is in
   bijection with the product of its coordinate ranges (an index is the tuple of its coordinates), and a sum over a
   product is the iterated sum. Stated for any commutative additive monoid and any extents; nothing here enumerates an
   index set. (The rank-2 case is the library's.) -/
import Idealize.ShloMosaic.Lib.ValueIdx

noncomputable section

open scoped BigOperators

namespace Cert.Lib.SumIdx

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Cert.Lib.SumIdx

end
-- ==== Proof.HeatSpec.lean ====
/- The heat-map term's mathematics: the squared difference of two maps weighted by a third, summed over a block of
   one grid point (`blockSum`) and over the whole four-axis array (`total`), as nested sums over the coordinates; each is
   also one sum over its index set. Extended reals under addition form a commutative monoid, so no finiteness is needed
   anywhere here. -/
import proofs.«156532_j1597727834375_2_alg».proof.Proof.LibSumIdx

noncomputable section

open scoped BigOperators

namespace Cert.Heat

open Idealize.ShloMosaic Idealize.ShloMosaic.ValueIdx Cert.Lib.SumIdx

/-- One element's contribution: the squared difference `(p - g)²` weighted by `k`. -/
def term (p g k : EReal) : EReal := (p - g) * (p - g) * k

/-- The contribution of one `17 × 256 × 256` block: the sum over its three coordinates. -/
def blockSum (x0 x1 x2 : (⟨3, ![17, 256, 256]⟩ : Shape).Idx → EReal) : EReal :=
  ∑ a : Fin 17, ∑ h : Fin 256, ∑ w : Fin 256, term (x0 (ix3 a h w)) (x1 (ix3 a h w)) (x2 (ix3 a h w))

/-- The contribution of the whole `16 × 17 × 256 × 256` array: the sum over its four coordinates. -/
def total (p g k : (⟨4, ![16, 17, 256, 256]⟩ : Shape).Idx → EReal) : EReal :=
  ∑ b : Fin 16, ∑ a : Fin 17, ∑ h : Fin 256, ∑ w : Fin 256,
    term (p (ix4 b a h w)) (g (ix4 b a h w)) (k (ix4 b a h w))

/-- The whole array's contribution, as one sum over its index set. -/
theorem total_eq_sum (p g k : (⟨4, ![16, 17, 256, 256]⟩ : Shape).Idx → EReal) :
    total p g k = ∑ i : (⟨4, ![16, 17, 256, 256]⟩ : Shape).Idx, term (p i) (g i) (k i) :=
  (sum_idx4 fun i => term (p i) (g i) (k i)).symm

/-- One block's contribution, as one sum over its index set. -/
theorem blockSum_eq_sum (x0 x1 x2 : (⟨3, ![17, 256, 256]⟩ : Shape).Idx → EReal) :
    blockSum x0 x1 x2 = ∑ i : (⟨3, ![17, 256, 256]⟩ : Shape).Idx, term (x0 i) (x1 i) (x2 i) :=
  (sum_idx3 fun i => term (x0 i) (x1 i) (x2 i)).symm

end Cert.Heat

end
-- ==== Proof.LibLaneSums.lean ====
/- Lane sums of a rank-3 vector at the ideal values, read at coordinates. A sum over ONE axis of an `[n0, n1, n2]` vector,
   from the zero word, is at each index of the two kept axes the sum over the dropped axis's coordinate of the source with
   that coordinate inserted (one lemma per axis, and the inserted index written by coordinates); with them the layout steps
   that sit between such sums when the summed axis is kept as a unit axis: the cast `[a, b] → [a, b, 1]`, the cast
   `[a, 1, 1] → [a]`, the broadcast of a one-element `[1, 1, 1]` vector over `[1, b, c]`, and the slice at the origin of a
   rank-3 array to `[n0, 1, 1]`. Every lemma is stated over literal coordinate types and any extents. -/
import Idealize.ShloMosaic.Lib.ValueLayout
import Idealize.ShloMosaic.PureOps.Ideal.Laws

noncomputable section

open scoped BigOperators

namespace Cert.Lib.LaneSums

open Idealize.ShloMosaic Idealize.ShloMosaic.ValueIdx

section Layout
variable {α : Type}

/-! ## Casts that keep a summed axis as a unit axis, and the broadcast of one element -/

/-- An `[a, b]` array cast to `[a, b, 1]` reads, at `(i, j, u)`, the operand at `(i, j)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, 1]` array cast to `[a]` reads, at `i`, the operand at `(i, 0, 0)`. -/
theorem shapeCast_a11_a_apply {a : ℕ} (x : (⟨3, ![a, 1, 1]⟩ : Shape).Idx → α)
    (h : (⟨3, ![a, 1, 1]⟩ : Shape).ShapeCasts ⟨1, ![a]⟩) (i : Fin a) :
    shapeCast ⟨1, ![a]⟩ x h (ix1 i) = x (ix3 i (0 : Fin 1) (0 : Fin 1)) :=
  shapeCast_apply x h _ _ (by
    rw [Shape.rowMajor_val_three, Shape.rowMajor_val_one]
    show (i.val * 1 + 0) * 1 + 0 = i.val
    rw [Nat.add_zero, Nat.mul_one, Nat.add_zero, Nat.mul_one])

/-- A `[1, 1, 1]` array broadcast to `[1, b, c]` reads its one element everywhere. -/
theorem broadcastTo_111_1bc_apply {b c : ℕ} (v : (⟨3, ![1, 1, 1]⟩ : Shape).Idx → α)
    (h : (⟨3, ![1, 1, 1]⟩ : Shape).Broadcasts ⟨3, ![1, b, c]⟩) (j : (⟨3, ![1, b, c]⟩ : Shape).Idx) :
    broadcastTo ⟨3, ![1, b, c]⟩ v h j = v (ix3 (0 : Fin 1) (0 : Fin 1) (0 : Fin 1)) := by
  refine broadcastTo_apply v h j _ fun ax => ?_
  match ax with
  | ⟨0, _⟩ => rfl
  | ⟨1, _⟩ => rfl
  | ⟨2, _⟩ => rfl

/-- A rank-3 array cut at the origin to `[n0, 1, 1]` reads, at `(i, 0, 0)`, the source at `(i, 0, 0)`. -/
theorem slice3_origin_a11_apply {n0 n1 n2 : ℕ} (X : (⟨3, ![n0, n1, n2]⟩ : Shape).Idx → α)
    (h : (⟨3, ![n0, n1, n2]⟩ : Shape).Slices ![0, 0, 0] ⟨3, ![n0, 1, 1]⟩) (i : Fin n0) (z1 : Fin n1) (z2 : Fin n2)
    (h1 : z1.val = 0) (h2 : z2.val = 0) :
    extractStridedSlice ⟨3, ![n0, 1, 1]⟩ ![0, 0, 0] X h (ix3 i (0 : Fin 1) (0 : Fin 1)) = X (ix3 i z1 z2) :=
  extractStridedSlice_apply _ _ _ _ _ (fun ax => by
    match ax with
    | ⟨0, _⟩ => exact (Nat.zero_add _).symm
    | ⟨1, _⟩ => exact h1
    | ⟨2, _⟩ => exact h2)

end Layout

/-! ## A one-axis sum of a rank-3 vector, read at coordinates -/

/-- Over the last axis, the source index above `(a, b)` with coordinate `w` inserted is `(a, b, w)`. -/
theorem lift_axis2 {n0 n1 n2 : ℕ} (h : (⟨3, ![n0, n1, n2]⟩ : Shape).Reduces [2] ⟨2, ![n0, n1]⟩)
    (a : Fin n0) (b : Fin n1) (w : Fin n2) : h.lift (ix2 a b) w = ix3 a b w := by
  funext c; refine Fin.ext ?_
  match c with
  | ⟨0, _⟩ => rfl
  | ⟨1, _⟩ => rfl
  | ⟨2, _⟩ => rfl

/-- Over the middle axis, the source index above `(a, u)` with coordinate `b` inserted is `(a, b, u)`. -/
theorem lift_axis1 {n0 n1 n2 : ℕ} (h : (⟨3, ![n0, n1, n2]⟩ : Shape).Reduces [1] ⟨2, ![n0, n2]⟩)
    (a : Fin n0) (u : Fin n2) (b : Fin n1) : h.lift (ix2 a u) b = ix3 a b u := by
  funext c; refine Fin.ext ?_
  match c with
  | ⟨0, _⟩ => rfl
  | ⟨1, _⟩ => rfl
  | ⟨2, _⟩ => rfl

/-- Over the first axis, the source index above `(u, v)` with coordinate `a` inserted is `(a, u, v)`. -/
theorem lift_axis0 {n0 n1 n2 : ℕ} (h : (⟨3, ![n0, n1, n2]⟩ : Shape).Reduces [0] ⟨2, ![n1, n2]⟩)
    (u : Fin n1) (v : Fin n2) (a : Fin n0) : h.lift (ix2 u v) a = ix3 a u v := by
  funext c; refine Fin.ext ?_
  match c with
  | ⟨0, _⟩ => rfl
  | ⟨1, _⟩ => rfl
  | ⟨2, _⟩ => rfl

/-- A sum over the last axis of a rank-3 vector, from the zero word, at `(a, b)`: the sum over `w` of the source at `(a, b, w)`. -/
theorem reduce_axis2_apply {n0 n1 n2 : ℕ} (src : FVec Ideal ⟨3, ![n0, n1, n2]⟩ .f32)
    (h : (⟨3, ![n0, n1, n2]⟩ : Shape).Reduces [2] ⟨2, ![n0, n1]⟩) (hφ : FKind.Formats .f32)
    (hacc : (0x00000000#32 : BitVec 32) = 0x00000000#32) (a : Fin n0) (b : Fin n1) :
    multiReduction .add [2] ⟨2, ![n0, n1]⟩ src 0x00000000#32 h hφ hacc (ix2 a b) = ∑ w : Fin n2, src (ix3 a b w) :=
  (Ideal.multiReduction_add_single src 0x00000000#32 h hφ hacc (ix2 a b)).trans
    (Finset.sum_congr rfl fun w _ => congrArg src (lift_axis2 h a b w))

/-- A sum over the middle axis, from the zero word, at `(a, u)`: the sum over `b` of the source at `(a, b, u)`. -/
theorem reduce_axis1_apply {n0 n1 n2 : ℕ} (src : FVec Ideal ⟨3, ![n0, n1, n2]⟩ .f32)
    (h : (⟨3, ![n0, n1, n2]⟩ : Shape).Reduces [1] ⟨2, ![n0, n2]⟩) (hφ : FKind.Formats .f32)
    (hacc : (0x00000000#32 : BitVec 32) = 0x00000000#32) (a : Fin n0) (u : Fin n2) :
    multiReduction .add [1] ⟨2, ![n0, n2]⟩ src 0x00000000#32 h hφ hacc (ix2 a u) = ∑ b : Fin n1, src (ix3 a b u) :=
  (Ideal.multiReduction_add_single src 0x00000000#32 h hφ hacc (ix2 a u)).trans
    (Finset.sum_congr rfl fun b _ => congrArg src (lift_axis1 h a u b))

/-- A sum over the first axis, from the zero word, at `(u, v)`: the sum over `a` of the source at `(a, u, v)`. -/
theorem reduce_axis0_apply {n0 n1 n2 : ℕ} (src : FVec Ideal ⟨3, ![n0, n1, n2]⟩ .f32)
    (h : (⟨3, ![n0, n1, n2]⟩ : Shape).Reduces [0] ⟨2, ![n1, n2]⟩) (hφ : FKind.Formats .f32)
    (hacc : (0x00000000#32 : BitVec 32) = 0x00000000#32) (u : Fin n1) (v : Fin n2) :
    multiReduction .add [0] ⟨2, ![n1, n2]⟩ src 0x00000000#32 h hφ hacc (ix2 u v) = ∑ a : Fin n0, src (ix3 a u v) :=
  (Ideal.multiReduction_add_single src 0x00000000#32 h hφ hacc (ix2 u v)).trans
    (Finset.sum_congr rfl fun a _ => congrArg src (lift_axis0 h u v a))

end Cert.Lib.LaneSums

end
-- ==== Proof.HeatKernel.lean ====
/- The kernel's side of the heat-map term. Per grid point the kernel's stored tile is, at every lane, the block sum of
   `(p - g)² · k`: three one-axis sums (over the last axis, then the middle, then the first), each followed by a cast that
   keeps the summed axis as a unit axis, and a broadcast of the one remaining element over the tile. The host then reads
   element `[b, 0, 0]` of each grid point's tile and adds the sixteen numbers from zero. -/
import proofs.«156532_j1597727834375_2_alg».proof.Proof.Gen.KernelIdeal.Skeleton
import proofs.«156532_j1597727834375_2_alg».proof.Proof.HeatSpec
import proofs.«156532_j1597727834375_2_alg».proof.Proof.LibLaneSums

noncomputable section

open scoped BigOperators

namespace Cert.Heat

open Idealize.ShloMosaic Idealize.ShloMosaic.ValueIdx Cert.Lib.SumIdx Cert.Lib.LaneSums

/-! ## The kernel's stored tile -/

/-- The product the kernel sums, at an element: the heat-map term of the three loaded blocks there. The three same-shape
    casts in front of it are the identity. -/
theorem prod_apply (x0 x1 x2 : FVec Ideal ⟨3, ![17, 256, 256]⟩ .f32)
    (hc : (⟨3, ![17, 256, 256]⟩ : Shape).ShapeCasts ⟨3, ![17, 256, 256]⟩) (i : (⟨3, ![17, 256, 256]⟩ : Shape).Idx) :
    mulf (mulf (subf (shapeCast ⟨3, ![17, 256, 256]⟩ x0 hc) (shapeCast ⟨3, ![17, 256, 256]⟩ x1 hc))
        (subf (shapeCast ⟨3, ![17, 256, 256]⟩ x0 hc) (shapeCast ⟨3, ![17, 256, 256]⟩ x1 hc)))
      (shapeCast ⟨3, ![17, 256, 256]⟩ x2 hc) i = term (x0 i) (x1 i) (x2 i) := by
  rw [shapeCast_self, shapeCast_self, shapeCast_self]
  rfl

open Cert.KernelIdeal Cert.KernelIdeal.Gen in
/-- THE TILE: at every lane of the `[1, 8, 128]` tile the kernel stores, the value is the block sum of the heat-map term
    over the three loaded `17 × 256 × 256` blocks. -/
theorem pay_apply (x0 x1 x2 : Vec Ideal S17x256x256 .f32) (j : S1x8x128.Idx) :
    k0_pay1 (F := Ideal) x0 x1 x2 j = blockSum x0 x1 x2 := by
  unfold k0_pay1
  refine (broadcastTo_111_1bc_apply _ _ j).trans ?_
  rw [shapeCast_self]
  refine (shapeCast_ab_ab1_apply _ _ (0 : Fin 1) (0 : Fin 1) (0 : Fin 1)).trans ?_
  refine (reduce_axis0_apply _ _ _ _ (0 : Fin 1) (0 : Fin 1)).trans ?_
  unfold blockSum
  refine Finset.sum_congr rfl fun a _ => ?_
  refine (shapeCast_ab_ab1_apply _ _ a (0 : Fin 1) (0 : Fin 1)).trans ?_
  refine (reduce_axis1_apply _ _ _ _ a (0 : Fin 1)).trans ?_
  refine Finset.sum_congr rfl fun h _ => ?_
  refine (shapeCast_ab_ab1_apply _ _ a h (0 : Fin 1)).trans ?_
  refine (reduce_axis2_apply _ _ _ _ a h).trans ?_
  refine Finset.sum_congr rfl fun w _ => ?_
  exact prod_apply x0 x1 x2 _ (ix3 a h w)

/-! ## The host's sum of the sixteen grid points' numbers -/

/-- The host's read-back of the kernel's result, for any proofs of its four shape facts: element `[b, 0, 0]` of each grid
    point's tile, the sixteen of them added from zero. -/
theorem ker_host_of (A : FVec Ideal ⟨3, ![16, 8, 128]⟩ .f32)
    (hsl : (⟨3, ![16, 8, 128]⟩ : Shape).Slices ![0, 0, 0] ⟨3, ![16, 1, 1]⟩)
    (hsc : (⟨3, ![16, 1, 1]⟩ : Shape).ShapeCasts ⟨1, ![16]⟩)
    (hred : (⟨1, ![16]⟩ : Shape).ReducesTo [0] ⟨0, ![]⟩) (hS : 0 < (⟨0, ![]⟩ : Shape).numel) :
    Host.reduceAdd (F := Ideal)
        (shapeCast ⟨1, ![16]⟩ (extractStridedSlice ⟨3, ![16, 1, 1]⟩ ![0, 0, 0] A hsl) hsc)
        (constant (F := Ideal) ⟨0, ![]⟩ .f32 0x00000000#32) hred hS
      = fun _ => ∑ b : Fin 16, A (ix3 b 0 0) := by
  funext i
  generalize hy : shapeCast ⟨1, ![16]⟩ (extractStridedSlice ⟨3, ![16, 1, 1]⟩ ![0, 0, 0] A hsl) hsc = y
  simp only [Host.reduceAdd, Ideal.hostReduceAdd_def]
  refine (Ideal.hostReduceAdd_total hred (fun b => b.elim0) y _ i).trans ?_
  rw [sum_idx1]
  show Ideal.ofBits .f32 0x00000000#32 + _ = _
  rw [Ideal.ofBits_zero_f32, zero_add]
  refine Finset.sum_congr rfl fun b _ => ?_
  rw [← hy]
  refine (shapeCast_a11_a_apply _ hsc b).trans ?_
  exact slice3_origin_a11_apply A hsl b 0 0 rfl rfl

open Cert.KernelIdeal Cert.KernelIdeal.Facts₀ in
/-- The same at the proofs the kernel's host program cites. -/
theorem ker_host (A : FVec Ideal S16x8x128 .f32) :
    Host.reduceAdd (F := Ideal)
        (shapeCast S16 (extractStridedSlice S16x1x1 ![0, 0, 0] A slices_S16x8x128_S16x1x1_0_0_0) shapeCasts_S16x1x1_S16)
        (constant (F := Ideal) S_ .f32 0x00000000#32) reducesTo_S16_S_d0 h_S_
      = fun _ => ∑ b : Fin 16, A (ix3 b 0 0) :=
  ker_host_of A _ _ _ _

end Cert.Heat

end
-- ==== Proof.HeatValue.lean ====
/-
  The [16,8,128] array the idealized kernel's region leaves: every entry of tile b holds the sum of (p-g)·(p-g)·k over
  image b of the three heat-map arguments. Point t writes tile t (the body's one store, whose value is the block sum
  of the three loaded blocks, and those blocks are image t of the arguments); the sixteen tiles cover the array.
  Hence the sixteen entries [b,0,0] add up to the sum over the whole [16,17,256,256] array.
-/
import proofs.«156532_j1597727834375_2_alg».proof.Proof.BlockRead
import proofs.«156532_j1597727834375_2_alg».proof.Proof.HeatKernel

set_option maxRecDepth 16384

noncomputable section

open scoped BigOperators

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)
open Cert.Heat

variable (m : (ℓ : Loc nD τ sig) → Buf (Elt Ideal) ℓ) (ρ : Dev nD → PrngReg)

/-- Image b of a [16,17,256,256] array, as a [17,256,256] array. -/
def imageOf (p : (⟨4, ![16, 17, 256, 256]⟩ : Shape).Idx → EReal) (b : Fin 16) : (⟨3, ![17, 256, 256]⟩ : Shape).Idx → EReal :=
  fun y => p (ix4 b (y 0) (y 1) (y 2))

/-- What the region's result array ends holding: at every entry of tile b, image b's sum. -/
def tiles (p g k : (⟨4, ![16, 17, 256, 256]⟩ : Shape).Idx → EReal) : (⟨3, ![16, 8, 128]⟩ : Shape).Idx → EReal :=
  fun i => blockSum (imageOf p (i 0)) (imageOf g (i 0)) (imageOf k (i 0))

/-- The three input blocks at point t are image t of the three arguments. -/
theorem blocks_eq (c : Dev nD) (t : Fin cfg0.N) :
    blockSum (iblk m c 0 t) (iblk m c 1 t) (iblk m c 2 t)
      = blockSum (imageOf (m ((c : Thread nD τ).loc main_arg0)) (img t)) (imageOf (m ((c : Thread nD τ).loc main_arg1)) (img t))
          (imageOf (m ((c : Thread nD τ).loc main_arg2)) (img t)) := by
  unfold blockSum
  refine Finset.sum_congr rfl fun a _ => Finset.sum_congr rfl fun h _ => Finset.sum_congr rfl fun w _ => ?_
  rw [block0_read m c t (ix3 a h w), block1_read m c t (ix3 a h w), block2_read m c t (ix3 a h w)]
  rfl

/-- What point t writes back is block t of `tiles` of the argument arrays. -/
theorem flushed3_eq (c : Dev nD) (t : Fin cfg0.N) :
    (dats m 0 c).flushed 3 t = ((cfg0.win 3).blk t).view.read (Elt Ideal)
      (tiles (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero hz3]
  simp only [View.ld_unit_zero (S := S17x256x256) hz3]
  funext j
  show k0_pay1 (iblk m c 0 t) (iblk m c 1 t) (iblk m c 2 t) j
    = tiles (m ((c : Thread nD τ).loc main_arg0)) (m ((c : Thread nD τ).loc main_arg1)) (m ((c : Thread nD τ).loc main_arg2))
        (((cfg0.win 3).blk t).view.emb j)
  refine (pay_apply (iblk m c 0 t) (iblk m c 1 t) (iblk m c 2 t) j).trans ?_
  refine (blocks_eq m c t).trans ?_
  have hb : img t = (((cfg0.win 3).blk t).view.emb j) 0 := Fin.ext (out_emb0 t j).symm
  unfold tiles
  rw [← hb]

/-- The array after the run. -/
theorem final3 (c : Dev nD) : (dats m 0 c).arrAt 3 cfg0.N
    = tiles (m ((c : Thread nD τ).loc main_arg0)) (m ((c : Thread nD τ).loc main_arg1)) (m ((c : Thread nD τ).loc main_arg2)) :=
  (dats m 0 c).arrAt_eq_of_cover 3 _ (fun t _ => flushed3_eq m c t) cover3

/-- The sixteen entries [b,0,0] of the tiles add up to the whole array's sum. -/
theorem sum_tiles (p g k : (⟨4, ![16, 17, 256, 256]⟩ : Shape).Idx → EReal) :
    (∑ b : Fin 16, tiles p g k (ix3 b 0 0)) = total p g k := rfl

end Cert.KernelIdeal.Val

end
-- ==== Proof.HeatLoss.lean ====
/-
  The heat-map loss as one function of the three heat-map arrays: the sum of (p-g)·(p-g)·k over every entry, divided by the
  number of entries (the float 17825792), times one — with the host's own division and product, so that both programs'
  last two host operations are met as they are spelt.
-/
import proofs.«156532_j1597727834375_2_alg».proof.Proof.HeatSpec
import Idealize.ShloMosaic.PureOps.Ideal

noncomputable section

namespace Cert.Heat

open Idealize.ShloMosaic

/-- The loss: the total over the entry count, times one. -/
def lossOf (p g k : (⟨4, ![16, 17, 256, 256]⟩ : Shape).Idx → EReal) : (⟨(⟨0, ![]⟩ : Shape), .f32⟩ : BufTy).Contents (Elt Ideal) :=
  mulf (Host.divf (F := Ideal) ((fun _ => total p g k) : (⟨(⟨0, ![]⟩ : Shape), .f32⟩ : BufTy).Contents (Elt Ideal))
    (constant (F := Ideal) ⟨0, ![]⟩ .f32 0x4B880000#32)) (constant (F := Ideal) ⟨0, ![]⟩ .f32 0x3F800000#32)

end Cert.Heat

end
-- ==== Proof.TailSpec.lean ====
/-
  The two losses that the kernel's program and the reference compute by the same host operations
  (the push loss and the pull loss), each as ONE function of the two arrays it reads: the predicted
  tag maps `x3` (16 images x 17 joints x 256 x 256 floats) and the joint table `x4` (16 x 30 persons x 17 joints x 2
  integers: a flat position in the image's 17 * 256 * 256 tags, and a visibility flag).

  Stage by stage, in the order of the programs' operations:
  * the tag of each joint is gathered at its position (a negative position counted from the end);
  * a joint is visible when its flag is positive; a person is present when it has a visible joint;
  * a person's mean tag is the sum of its visible joints' tags over their number (at least one);
  * pull: per person the visible joints' squared distances to the mean tag, averaged the same way; per image the sum over
    present persons divided by their number (at least one); the loss is the images' mean times a constant;
  * push: per image the sum over ordered pairs of present persons of exp(-(difference of mean tags)^2), minus the
    number n of present persons, over max(n (n - 1), 1), halved, and zero unless n >= 2; the loss is the images' mean
    times a constant.
  Every intermediate is a definition of its own so that each is written once; nothing below is ever unfolded by the
  certificate except to see that both programs compute exactly this chain.
-/
import proofs.«156532_j1597727834375_2_alg».proof.Proof.Gen.ReferenceIdeal
import Idealize.ShloMosaic.PureOps.Ideal

noncomputable section

namespace Cert.Tail

open Idealize.ShloMosaic Cert.ReferenceIdeal Cert.ReferenceIdeal.Gen

/-- Contents of a float array of shape `s` at the ideal instance. -/
abbrev FA (s : Shape) : Type := (⟨s, .f32⟩ : BufTy).Contents (Elt Ideal)
/-- Contents of a 32-bit integer array of shape `s`. -/
abbrev IA (s : Shape) : Type := (⟨s, .i32⟩ : BufTy).Contents (Elt Ideal)
/-- Contents of a truth-value array of shape `s`. -/
abbrev BA (s : Shape) : Type := (⟨s, .i1⟩ : BufTy).Contents (Elt Ideal)

/-- The tag maps with the joint, row and column axes flattened: 16 x 1114112. -/
def flatTags (x3 : FA S16x17x256x256) : FA S16x1114112 :=
  shapeCast _ x3 shapeCasts_S16x17x256x256_S16x1114112

/-- Each joint's position: column 0 of the joint table. -/
def jointPos (x4 : IA S16x30x17x2) : IA S16x30x17 :=
  shapeCast _ (extractStridedSlice S16x30x17x1 ![0, 0, 0, 0] x4 slices_S16x30x17x2_S16x30x17x1_0_0_0_0) shapeCasts_S16x30x17x1_S16x30x17

/-- Each joint's visibility flag: column 1 of the joint table. -/
def jointFlag (x4 : IA S16x30x17x2) : IA S16x30x17 :=
  shapeCast _ (extractStridedSlice S16x30x17x1 ![0, 0, 0, 1] x4 slices_S16x30x17x2_S16x30x17x1_0_0_0_1) shapeCasts_S16x30x17x1_S16x30x17

/-- 1 where the joint is visible (flag > 0), else 0. -/
def vis (x4 : IA S16x30x17x2) : FA S16x30x17 :=
  uitofp (F := Ideal) .f32 (cmpi .sgt (jointFlag x4) (broadcastInDim S16x30x17 ![] bcast_S_S16x30x17 (constantI S_ 32 0#32)))

/-- The position with a negative one counted from the end of the image's tags. -/
def wrapPos (x4 : IA S16x30x17x2) : IA S16x30x17 :=
  select (cmpi .slt (jointPos x4) (broadcastInDim S16x30x17 ![] bcast_S_S16x30x17 (constantI S_ 32 0#32)))
    (addi (jointPos x4) (broadcastInDim S16x30x17 ![] bcast_S_S16x30x17 (constantI S_ 32 1114112#32))) (jointPos x4)

/-- The tag at each joint's position. -/
def tagAt (x3 : FA S16x17x256x256) (x4 : IA S16x30x17x2) : FA S16x30x17 :=
  Host.gather gather_S16x1114112_S16x30x17x1_S16x30x17_n_1_0_0_1_3_11 (flatTags x3)
    (broadcastInDim S16x30x17x1 ![0, 1, 2] bcast_S16x30x17_S16x30x17x1_0_1_2 (wrapPos x4))

/-- The number of visible joints of each person. -/
def visCount (x4 : IA S16x30x17x2) : FA S16x30 :=
  Host.reduceAdd (F := Ideal) (vis x4) (constant (F := Ideal) S_ .f32 0x00000000#32) reducesTo_S16x30x17_S16x30_d2 h_S_

/-- A person is present when it has a visible joint. -/
def present (x4 : IA S16x30x17x2) : BA S16x30 :=
  cmpf (F := Ideal) .ogt (visCount x4) (broadcastInDim S16x30 ![] bcast_S_S16x30 (constant (F := Ideal) S_ .f32 0x00000000#32))

/-- The number of visible joints, at least one. -/
def visCount1 (x4 : IA S16x30x17x2) : FA S16x30 :=
  maximumf (F := Ideal) (visCount x4) (broadcastInDim S16x30 ![] bcast_S_S16x30 (constant (F := Ideal) S_ .f32 0x3F800000#32))

/-- Each person's mean tag over its visible joints. -/
def meanTag (x3 : FA S16x17x256x256) (x4 : IA S16x30x17x2) : FA S16x30 :=
  Host.divf (F := Ideal)
    (Host.reduceAdd (F := Ideal) (mulf (F := Ideal) (tagAt x3 x4) (vis x4)) (constant (F := Ideal) S_ .f32 0x00000000#32) reducesTo_S16x30x17_S16x30_d2 h_S_)
    (visCount1 x4)

/-- Each joint's tag minus its person's mean tag. -/
def tagDev (x3 : FA S16x17x256x256) (x4 : IA S16x30x17x2) : FA S16x30x17 :=
  subf (F := Ideal) (φ := .f32) (tagAt x3 x4)
    (broadcastInDim S16x30x17 ![0, 1, 2] bcast_S16x30x1_S16x30x17_0_1_2 (broadcastInDim S16x30x1 ![0, 1] bcast_S16x30_S16x30x1_0_1 (meanTag x3 x4)))

/-- Each person's pull term: the visible joints' squared deviations, averaged. -/
def personPull (x3 : FA S16x17x256x256) (x4 : IA S16x30x17x2) : FA S16x30 :=
  Host.divf (F := Ideal)
    (Host.reduceAdd (F := Ideal) (mulf (F := Ideal) (vis x4) (mulf (F := Ideal) (tagDev x3 x4) (tagDev x3 x4))) (constant (F := Ideal) S_ .f32 0x00000000#32)
      reducesTo_S16x30x17_S16x30_d2 h_S_)
    (visCount1 x4)

/-- The number of present persons of each image. -/
def nPresent (x4 : IA S16x30x17x2) : FA S16 :=
  Host.reduceAdd (F := Ideal) (uitofp (F := Ideal) .f32 (present x4)) (constant (F := Ideal) S_ .f32 0x00000000#32) reducesTo_S16x30_S16_d1 h_S_

/-- Each image's pull term: the present persons' pull terms, averaged. -/
def imagePull (x3 : FA S16x17x256x256) (x4 : IA S16x30x17x2) : FA S16 :=
  Host.divf (F := Ideal)
    (Host.reduceAdd (F := Ideal)
      (select (present x4) (personPull x3 x4)
        (broadcastInDim S16x30 ![1] bcast_S30_S16x30_1 (broadcastInDim S30 ![] bcast_S_S30 (id (constant (F := Ideal) S_ .f32 0x00000000#32)))))
      (constant (F := Ideal) S_ .f32 0x00000000#32) reducesTo_S16x30_S16_d1 h_S_)
    (maximumf (F := Ideal) (nPresent x4) (broadcastInDim S16 ![] bcast_S_S16 (constant (F := Ideal) S_ .f32 0x3F800000#32)))

/-- The pull loss as a function of the tag maps `x3` and the joint table `x4`. -/
def pullOf (x3 : FA S16x17x256x256) (x4 : IA S16x30x17x2) : FA S_ :=
  mulf (F := Ideal) (Host.divf (F := Ideal)
      (Host.reduceAdd (F := Ideal) (imagePull x3 x4) (constant (F := Ideal) S_ .f32 0x00000000#32) reducesTo_S16_S_d0 h_S_)
      (constant (F := Ideal) S_ .f32 0x41800000#32))
    (constant (F := Ideal) S_ .f32 0x3A83126F#32)

/-- The difference of the mean tags of each ordered pair of persons of an image. -/
def meanDiff (x3 : FA S16x17x256x256) (x4 : IA S16x30x17x2) : FA S16x30x30 :=
  subf (F := Ideal) (φ := .f32)
    (broadcastInDim S16x30x30 ![0, 1, 2] bcast_S16x30x1_S16x30x30_0_1_2 (broadcastInDim S16x30x1 ![0, 1] bcast_S16x30_S16x30x1_0_1 (meanTag x3 x4)))
    (broadcastInDim S16x30x30 ![0, 1, 2] bcast_S16x1x30_S16x30x30_0_1_2 (broadcastInDim S16x1x30 ![0, 2] bcast_S16x30_S16x1x30_0_2 (meanTag x3 x4)))

/-- Both persons of the pair are present. -/
def bothPresent (x4 : IA S16x30x17x2) : BA S16x30x30 :=
  andi
    (broadcastInDim S16x30x30 ![0, 1, 2] bcast_S16x30x1_S16x30x30_0_1_2 (broadcastInDim S16x30x1 ![0, 1] bcast_S16x30_S16x30x1_0_1 (present x4)))
    (broadcastInDim S16x30x30 ![0, 1, 2] bcast_S16x1x30_S16x30x30_0_1_2 (broadcastInDim S16x1x30 ![0, 2] bcast_S16x30_S16x1x30_0_2 (present x4)))

/-- Each image's sum over the pairs of present persons of exp(-(difference of mean tags)^2). -/
def pairSum (x3 : FA S16x17x256x256) (x4 : IA S16x30x17x2) : FA S16 :=
  Host.reduceAdd (F := Ideal)
    (select (bothPresent x4) (Host.exp (F := Ideal) (Host.negf (F := Ideal) (mulf (F := Ideal) (meanDiff x3 x4) (meanDiff x3 x4))))
      (broadcastInDim S16x30x30 ![1, 2] bcast_S30x30_S16x30x30_1_2 (broadcastInDim S30x30 ![] bcast_S_S30x30 (id (constant (F := Ideal) S_ .f32 0x00000000#32)))))
    (constant (F := Ideal) S_ .f32 0x00000000#32) reducesTo_S16x30x30_S16_d1_2 h_S_

/-- Each image's push term. -/
def imagePush (x3 : FA S16x17x256x256) (x4 : IA S16x30x17x2) : FA S16 :=
  select (cmpf (F := Ideal) .oge (nPresent x4) (broadcastInDim S16 ![] bcast_S_S16 (constant (F := Ideal) S_ .f32 0x40000000#32)))
    (mulf (F := Ideal)
      (Host.divf (F := Ideal) (subf (F := Ideal) (pairSum x3 x4) (nPresent x4))
        (maximumf (F := Ideal) (mulf (F := Ideal) (subf (F := Ideal) (nPresent x4) (broadcastInDim S16 ![] bcast_S_S16 (constant (F := Ideal) S_ .f32 0x3F800000#32))) (nPresent x4))
          (broadcastInDim S16 ![] bcast_S_S16 (constant (F := Ideal) S_ .f32 0x3F800000#32))))
      (broadcastInDim S16 ![] bcast_S_S16 (constant (F := Ideal) S_ .f32 0x3F000000#32)))
    (broadcastInDim S16 ![] bcast_S_S16 (id (constant (F := Ideal) S_ .f32 0x00000000#32)))

/-- The push loss as a function of the tag maps `x3` and the joint table `x4`. -/
def pushOf (x3 : FA S16x17x256x256) (x4 : IA S16x30x17x2) : FA S_ :=
  mulf (F := Ideal) (Host.divf (F := Ideal)
      (Host.reduceAdd (F := Ideal) (imagePush x3 x4) (constant (F := Ideal) S_ .f32 0x00000000#32) reducesTo_S16_S_d0 h_S_)
      (constant (F := Ideal) S_ .f32 0x41800000#32))
    (constant (F := Ideal) S_ .f32 0x3A83126F#32)

end Cert.Tail

end
-- ==== Proof.TailKernel.lean ====
/-
  The host operations after the kernel's region, read back as pure terms of the buffer contents `W` the region
  leaves.  The 108 operations come in seven stretches (the program's own lines and the inlined bodies of three
  selections); run in order from `W`, the value each result buffer ends at is the composition of the operations'
  functions along the chain of buffers, every other buffer being left as it was.

  * `ker_heat_tail`: the first result reads only the region's output buffer: the sum of its sixteen per-image partial
    sums, divided by the number of heat-map elements, times one.
  * `ker_push`, `ker_pull`: the other two results read only the tag maps and the joint table, and the composed terms are
    the push and pull functions of `TailSpec` applied to those two buffers' contents: the operations are, one for one,
    those of the definitions there (the shape facts of the two programs are proofs of the same propositions).
-/
import proofs.«156532_j1597727834375_2_alg».proof.Proof.Gen.KernelIdeal.Launch
import proofs.«156532_j1597727834375_2_alg».proof.Proof.TailSpec
import Idealize.ShloMosaic.Lib.StableHlo.Run
import Idealize.ShloMosaic.Lib.Pipeline.Frame

noncomputable section

namespace Cert.Tail

open Idealize.ShloMosaic Idealize.ShloMosaic.TcCoe Idealize.SL.Sem Idealize.ShloMosaic.StableHlo
open Cert.KernelIdeal Cert.KernelIdeal.Gen

/-- The seven stretches of host operations after the region, in order. -/
abbrev tailOps : List (List (HloOp Cert.KernelIdeal.τ Cert.KernelIdeal.sig (Elt Ideal))) :=
  [hostOps1, hostOps1_1, hostOps1_2, hostOps1_3, hostOps1_4, hostOps1_5, hostOps1_6]

set_option maxRecDepth 8192 in
set_option maxHeartbeats 4000000 in
/-- The heat-map loss after the tail: the mean of the region's sixteen partial sums (times one). -/
theorem ker_heat_tail (W : Valuation Cert.KernelIdeal.τ Cert.KernelIdeal.sig (Elt Ideal)) :
    StableHlo.after (List.flatten [hostOps1, hostOps1_1, hostOps1_2, hostOps1_3, hostOps1_4, hostOps1_5, hostOps1_6]) W
        (Proc.devRef .tc Cert.KernelIdeal.main_v8)
      = mulf (Host.divf (F := Ideal) (Host.reduceAdd (F := Ideal)
          (shapeCast S16 (extractStridedSlice S16x1x1 ![0, 0, 0] (W (Proc.devRef .tc Cert.KernelIdeal.main_v3)) slices_S16x8x128_S16x1x1_0_0_0) shapeCasts_S16x1x1_S16)
          (constant (F := Ideal) S_ .f32 0x00000000#32) reducesTo_S16_S_d0 h_S_) (constant (F := Ideal) S_ .f32 0x4B880000#32))
          (constant (F := Ideal) S_ .f32 0x3F800000#32) := by
  simp only [List.flatten_cons, List.flatten_nil, List.append_nil, StableHlo.after_append]
  after_results_simp
  rfl

set_option maxRecDepth 8192 in
set_option maxHeartbeats 16000000 in
/-- The push loss after the tail is the push function of the tag maps and the joint table. -/
theorem ker_push (W : Valuation Cert.KernelIdeal.τ Cert.KernelIdeal.sig (Elt Ideal)) :
    StableHlo.after (List.flatten [hostOps1, hostOps1_1, hostOps1_2, hostOps1_3, hostOps1_4, hostOps1_5, hostOps1_6]) W
        (Proc.devRef .tc Cert.KernelIdeal.main_v75)
      = pushOf (W (Proc.devRef .tc Cert.KernelIdeal.main_arg3)) (W (Proc.devRef .tc Cert.KernelIdeal.main_arg4)) := by
  simp only [List.flatten_cons, List.flatten_nil, List.append_nil, StableHlo.after_append]
  after_results_simp
  rfl

set_option maxRecDepth 8192 in
set_option maxHeartbeats 16000000 in
/-- The pull loss after the tail is the pull function of the tag maps and the joint table. -/
theorem ker_pull (W : Valuation Cert.KernelIdeal.τ Cert.KernelIdeal.sig (Elt Ideal)) :
    StableHlo.after (List.flatten [hostOps1, hostOps1_1, hostOps1_2, hostOps1_3, hostOps1_4, hostOps1_5, hostOps1_6]) W
        (Proc.devRef .tc Cert.KernelIdeal.main_v78)
      = pullOf (W (Proc.devRef .tc Cert.KernelIdeal.main_arg3)) (W (Proc.devRef .tc Cert.KernelIdeal.main_arg4)) := by
  simp only [List.flatten_cons, List.flatten_nil, List.append_nil, StableHlo.after_append]
  after_results_simp
  rfl

end Cert.Tail

end
-- ==== Proof.KernelRun.lean ====
/-
  The idealized kernel's run, with its three results named as functions of the argument arrays: the heat-map loss from
  the region's tiles through the eight host operations that follow it, and the push and pull losses from the tag maps and
  the joint table through the hundred host operations after those; the five arguments unchanged.
-/
import proofs.«156532_j1597727834375_2_alg».proof.Proof.HeatValue
import proofs.«156532_j1597727834375_2_alg».proof.Proof.HeatLoss
import proofs.«156532_j1597727834375_2_alg».proof.Proof.TailKernel

set_option maxRecDepth 16384

noncomputable section

open scoped BigOperators

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)
open Cert.Heat

variable (m : (ℓ : Loc nD τ sig) → Buf (Elt Ideal) ℓ) (ρ : Dev nD → PrngReg)

/-- The buffers when the region has finished: the region's four arrays at what the run computes, the rest as entered. -/
abbrev Wend (c : Dev nD) : Valuation τ sig (Elt Ideal) :=
  Pipeline.withArrays (cfgs 0).spec c (V0 m c) fun w => (dats m 0 c).arrAt w (cfgs 0).N

/-- The region's result array, when the region has finished, is the tiles. -/
theorem Wend_v3 (c : Dev nD) : Wend m c (Proc.devRef .tc main_v3)
    = tiles (m ((c : Thread nD τ).loc main_arg0)) (m ((c : Thread nD τ).loc main_arg1)) (m ((c : Thread nD τ).loc main_arg2)) :=
  (Pipeline.withArrays_arr spec0 launch0.win.arr_inj c (V0 m c) _ 3).trans (final3 m c)

/-- The tag maps and the joint table are no array of the region: as launched. -/
theorem Wend_arg3 (c : Dev nD) : Wend m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)
theorem Wend_arg4 (c : Dev nD) : Wend m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)

/-- The first result: entry [b,0,0] of each tile, the sixteen added from zero, over the entry count, times one. -/
theorem tail_heat (c : Dev nD) : Pipeline.afterTail₀ cfgs (dats m) 0 (V0 m) tailOpss c main_v8
    = lossOf (m ((c : Thread nD τ).loc main_arg0)) (m ((c : Thread nD τ).loc main_arg1)) (m ((c : Thread nD τ).loc main_arg2)) := by
  unfold Pipeline.afterTail₀
  refine (Cert.Tail.ker_heat_tail (Wend m c)).trans ?_
  rw [Wend_v3 m c, Cert.Heat.ker_host]
  unfold lossOf
  simp only [sum_tiles]

theorem tail_push (c : Dev nD) : Pipeline.afterTail₀ cfgs (dats m) 0 (V0 m) tailOpss c main_v75
    = Cert.Tail.pushOf (m ((c : Thread nD τ).loc main_arg3)) (m ((c : Thread nD τ).loc main_arg4)) := by
  unfold Pipeline.afterTail₀
  refine (Cert.Tail.ker_push (Wend m c)).trans ?_
  rw [Wend_arg3 m c, Wend_arg4 m c]

theorem tail_pull (c : Dev nD) : Pipeline.afterTail₀ cfgs (dats m) 0 (V0 m) tailOpss c main_v78
    = Cert.Tail.pullOf (m ((c : Thread nD τ).loc main_arg3)) (m ((c : Thread nD τ).loc main_arg4)) := by
  unfold Pipeline.afterTail₀
  refine (Cert.Tail.ker_pull (Wend m c)).trans ?_
  rw [Wend_arg3 m c, Wend_arg4 m c]

/-- The run, read. -/
theorem run : θ_run defs (onTc (τ := τ) (main (F := Ideal))) ⟨m, fun _ => 0, ρ⟩ fun r => ∀ c : Dev nD,
      r.2.mem ((c.tc : Thread nD τ).loc main_v8)
        = lossOf (m ((c.tc : Thread nD τ).loc main_arg0)) (m ((c.tc : Thread nD τ).loc main_arg1)) (m ((c.tc : Thread nD τ).loc main_arg2))
      ∧ r.2.mem ((c.tc : Thread nD τ).loc main_v75)
        = Cert.Tail.pushOf (m ((c.tc : Thread nD τ).loc main_arg3)) (m ((c.tc : Thread nD τ).loc main_arg4))
      ∧ r.2.mem ((c.tc : Thread nD τ).loc main_v78)
        = Cert.Tail.pullOf (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v8 (Pipeline.mem_restRefs_of main_v8 (by decide) (by decide))).trans (tail_heat m c),
     ((h c).2 main_v75 (Pipeline.mem_restRefs_of main_v75 (by decide) (by decide))).trans (tail_push m c),
     ((h c).2 main_v78 (Pipeline.mem_restRefs_of main_v78 (by decide) (by decide))).trans (tail_pull m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main (F := Ideal) m ρ)

end Cert.KernelIdeal.Val

end
-- ==== Proof.HeatRef.lean ====
/- The reference's side of the heat-map term: the host's sum of `(p - g)² · k` over every element of the
   `16 × 17 × 256 × 256` array at once, from zero, is the fourfold sum over the coordinates. -/
import proofs.«156532_j1597727834375_2_alg».proof.Proof.Gen.ReferenceIdeal
import proofs.«156532_j1597727834375_2_alg».proof.Proof.HeatSpec
import Idealize.ShloMosaic.PureOps.Ideal.Laws

noncomputable section

open scoped BigOperators

namespace Cert.Heat

open Idealize.ShloMosaic Idealize.ShloMosaic.ValueIdx

/-- The sum over all four axes into the rank-0 shape, for any proofs of its two shape facts: zero plus the sum over the whole
    index set of the product, which is the heat-map term at each element; then regrouped by coordinates. -/
theorem ref_sum_of (a0 a1 a2 : FVec Ideal ⟨4, ![16, 17, 256, 256]⟩ .f32)
    (hred : (⟨4, ![16, 17, 256, 256]⟩ : Shape).ReducesTo [0, 1, 2, 3] ⟨0, ![]⟩) (hS : 0 < (⟨0, ![]⟩ : Shape).numel) :
    Host.reduceAdd (F := Ideal) (mulf (mulf (subf a0 a1) (subf a0 a1)) a2)
        (constant (F := Ideal) ⟨0, ![]⟩ .f32 0x00000000#32) hred hS
      = fun _ => total a0 a1 a2 := by
  funext i
  generalize hy : mulf (mulf (subf a0 a1) (subf a0 a1)) a2 = y
  simp only [Host.reduceAdd, Ideal.hostReduceAdd_def]
  refine (Ideal.hostReduceAdd_total hred (fun b => b.elim0) y _ i).trans ?_
  show Ideal.ofBits .f32 0x00000000#32 + _ = _
  rw [Ideal.ofBits_zero_f32, zero_add, total_eq_sum, ← hy]
  exact Finset.sum_congr rfl fun _ _ => rfl

open Cert.ReferenceIdeal Cert.ReferenceIdeal.Facts₀ in
/-- The same at the proofs the reference program cites. -/
theorem ref_sum (a0 a1 a2 : FVec Ideal S16x17x256x256 .f32) :
    Host.reduceAdd (F := Ideal) (mulf (mulf (subf a0 a1) (subf a0 a1)) a2)
        (constant (F := Ideal) S_ .f32 0x00000000#32) reducesTo_S16x17x256x256_S_d0_1_2_3 h_S_
      = fun _ => total a0 a1 a2 :=
  ref_sum_of a0 a1 a2 _ _

end Cert.Heat

end
-- ==== Proof.TailRef.lean ====
/-
  The reference's two loss results are the push and the pull function of the contents of its two argument buffers:
  the reference's run states each result as one closed term of the launch memory, and that term is, operation for
  operation, the chain of `TailSpec` applied to the two reads, each shared intermediate written out at every use.
-/
import proofs.«156532_j1597727834375_2_alg».proof.Proof.TailSpec
import proofs.«156532_j1597727834375_2_alg».proof.Proof.RefRun

noncomputable section

namespace Cert.Tail

open Idealize.ShloMosaic Idealize.ShloMosaic.TcCoe Idealize.SL.Sem

set_option maxRecDepth 8192 in
set_option maxHeartbeats 4000000 in
/-- The reference's push result is `pushOf` of what the launch memory holds at the tag maps and the joint table. -/
theorem ref_push (m : (ℓ : Loc Cert.ReferenceIdeal.nD Cert.ReferenceIdeal.τ Cert.ReferenceIdeal.sig) → Buf (Elt Ideal) ℓ)
    (c : Dev Cert.ReferenceIdeal.nD) :
    Cert.ReferenceIdeal.RunP.res_main_v72 (F := Ideal) m c
      = pushOf (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4)) := by
  unfold Cert.ReferenceIdeal.RunP.res_main_v72
  rfl

set_option maxRecDepth 8192 in
set_option maxHeartbeats 4000000 in
/-- The reference's pull result is `pullOf` of what the launch memory holds at the tag maps and the joint table. -/
theorem ref_pull (m : (ℓ : Loc Cert.ReferenceIdeal.nD Cert.ReferenceIdeal.τ Cert.ReferenceIdeal.sig) → Buf (Elt Ideal) ℓ)
    (c : Dev Cert.ReferenceIdeal.nD) :
    Cert.ReferenceIdeal.RunP.res_main_v75 (F := Ideal) m c
      = pullOf (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4)) := by
  unfold Cert.ReferenceIdeal.RunP.res_main_v75
  rfl

end Cert.Tail

end
-- ==== Proof.RefSide.lean ====
/-
  The reference's three results as the same functions of the argument arrays that the kernel's run ends at: the
  heat-map loss is the whole-array sum over the entry count times one; the push and pull losses are the two tail functions.
-/
import proofs.«156532_j1597727834375_2_alg».proof.Proof.RefRun
import proofs.«156532_j1597727834375_2_alg».proof.Proof.HeatRef
import proofs.«156532_j1597727834375_2_alg».proof.Proof.HeatLoss
import proofs.«156532_j1597727834375_2_alg».proof.Proof.TailRef

noncomputable section

namespace Cert.ReferenceIdeal.RefValue

open Cert.ReferenceIdeal Cert.ReferenceIdeal.Gen
open Idealize.ShloMosaic Idealize.ShloMosaic.TcCoe Idealize.SL.Sem

/-- The reference's first result, as its run states it, is the loss function of the three heat-map arrays. -/
theorem ref_heat (a0 a1 a2 : FVec Ideal S16x17x256x256 .f32) :
    mulf (Host.divf (F := Ideal) (Host.reduceAdd (F := Ideal) (mulf (mulf (subf a0 a1) (subf a0 a1)) a2)
        (constant (F := Ideal) S_ .f32 0x00000000#32) reducesTo_S16x17x256x256_S_d0_1_2_3 h_S_)
        (constant (F := Ideal) S_ .f32 0x4B880000#32)) (constant (F := Ideal) S_ .f32 0x3F800000#32)
      = Cert.Heat.lossOf a0 a1 a2 := by
  rw [Cert.Heat.ref_sum]
  rfl

end Cert.ReferenceIdeal.RefValue

end
-- ==== Proof.lean ====
/-
  The certificate of the heat-map / associative-embedding loss kernel against its reference.

  The kernel's program reshapes the three heat-map arrays [16,17,256,256] → [272,256,256], runs one region over a grid of
  sixteen points — point b loads image b of each array whole, adds (p-g)·(p-g)·k over it by three lane sums and spreads the
  number over tile b of a [16,8,128] result — then takes entry [b,0,0] of every tile, adds the sixteen, divides by the
  entry count and multiplies by one. The reference adds (p-g)·(p-g)·k over the whole four-axis array at once and divides
  and multiplies likewise. Over the extended reals addition is commutative and associative and 0 + x = x, so the two sums
  are one number whatever the inputs: the precondition is never opened. The other two results (the push and pull
  losses over the tag maps and the joint table) are computed by the same hundred host operations in both programs.

  Frames: both printings of the kernel's program run to the end and leave the arguments as launched (the region's
  windows stage the reshaped copies, and no later host operation writes an argument); the reference's frame is its run
  with the results dropped. The idealization rewrote nothing, so `preserves` is `True`.
-/
import proofs.«156532_j1597727834375_2_alg».proof.Defs
import proofs.«156532_j1597727834375_2_alg».proof.Proof.Gen.Kernel
import proofs.«156532_j1597727834375_2_alg».proof.Proof.Gen.KernelIdeal
import proofs.«156532_j1597727834375_2_alg».proof.Proof.Gen.ReferenceIdeal
import proofs.«156532_j1597727834375_2_alg».proof.Proof.Gen.Pre_finite_inputs
import proofs.«156532_j1597727834375_2_alg».proof.Proof.FrameK
import proofs.«156532_j1597727834375_2_alg».proof.Proof.KernelRun
import proofs.«156532_j1597727834375_2_alg».proof.Proof.RefSide

noncomputable section

namespace Cert.Proof

open Idealize.ShloMosaic Idealize.ShloMosaic.TcCoe Idealize.SL.Sem

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2.2.2) (Cert.ReferenceIdeal.RunP.run (F := Ideal) m ρ)

theorem preserves : Cert.preserves_Kernel_KernelIdeal := trivial

/-- Both idealized programs end with the loss function of the heat-map arrays and the two tail functions of the tag maps
    and the joint table, of arguments that agree. -/
theorem algebraic : Cert.algebraic_KernelIdeal_ReferenceIdeal := by
  intro m ρ m' ρ' _ hagree
  refine ⟨_, _, _, Cert.KernelIdeal.Val.run m ρ, ?_⟩
  refine (θ_run Cert.ReferenceIdeal.defs _ _).mono (fun _ h c => ?_) (Cert.ReferenceIdeal.RunP.run (F := Ideal) m' ρ')
  obtain ⟨h0, h1, h2, hargs⟩ := h c
  obtain ⟨a0, a1, a2, a3, a4⟩ := hagree c
  refine ⟨h0.trans ?_, h1.trans ?_, h2.trans ?_, hargs⟩
  · rw [a0, a1, a2]
    exact Cert.ReferenceIdeal.RefValue.ref_heat _ _ _
  · rw [Cert.Tail.ref_push, a3, a4]
  · rw [Cert.Tail.ref_pull, a3, a4]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
